-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x4096x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S8x1024x1024 : Shape := ⟨3, ![8, 1024, 1024]⟩
abbrev S1x1024x1024 : Shape := ⟨3, ![1, 1024, 1024]⟩
abbrev S1x512x1024 : Shape := ⟨3, ![1, 512, 1024]⟩
abbrev S512x1024 : Shape := ⟨2, ![512, 1024]⟩
abbrev S1x1024 : Shape := ⟨2, ![1, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S8x1024x1024, .bf16⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1x512x1024, .f32⟩
  | .local _ .vmem, ⟨8, _⟩ => ⟨S1x512x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024, .f32⟩
  | .local _ .vmem, ⟨12, _⟩ => ⟨S1x1024x1024, .bf16⟩
  | .local _ .vmem, ⟨13, _⟩ => ⟨S1x1024x1024, .bf16⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S512x1024_S1x512x1024 : S512x1024.ShapeCasts S1x512x1024
  dot_S1024x1024_S1024x1024_S1024x1024_1_1_0_0_n_n_wf : DotDims.WF S1024x1024 S1024x1024 S1024x1024 [1] [1] [0] [0] [] []
  dot_S1024x1024_S1024x1024_S1024x1024_0_0_1_1_n_n_wf : DotDims.WF S1024x1024 S1024x1024 S1024x1024 [0] [0] [1] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x4096x1024.size a
  hwx0_0 : ∀ i : grid0.Coords, EltTy.bits .f32 = 32 ∨ (Rect.block (s := S8x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x1024.size a
  hwx0_3 : ∀ i : grid0.Coords, EltTy.bits .bf16 = 32 ∨ (Rect.block (s := S8x1024x1024) S1x1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x4096x1024.size a
  hwx1_0 : ∀ i : grid1.Coords, EltTy.bits .f32 = 32 ∨ (Rect.block (s := S8x4096x1024) S1x512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S1024x1024.size a
  hwx1_2 : ∀ i : grid1.Coords, EltTy.bits .bf16 = 32 ∨ (Rect.block (s := S1024x1024) S1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024.size a ≤ S1024.size a
  hwx1_3 : ∀ i : grid1.Coords, EltTy.bits .f32 = 32 ∨ (Rect.block (s := S1024) S1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1024.size a ≤ S8x1024x1024.size a
  hwx1_4 : ∀ i : grid1.Coords, EltTy.bits .bf16 = 32 ∨ (Rect.block (s := S8x1024x1024) S1x1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x4096x1024.size a
  hwx1_5 : ∀ i : grid1.Coords, EltTy.bits .f32 = 32 ∨ (Rect.block (s := S8x4096x1024) S1x512x1024.size (cc1_transform_5 i) (hinb1_5 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1024x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S8x1024x1024 : Shape := ⟨3, ![8, 1024, 1024]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x1024x1024, .f32⟩
  | .hbm, ⟨10, _⟩ => ⟨S8x4096x1024, .f32⟩
  | .hbm, ⟨11, _⟩ => ⟨S8x4096x1024, .f32⟩
  | .hbm, ⟨12, _⟩ => ⟨S1x1x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  dot_S8x4096x1024_S1024x1024_S8x4096x1024_2_1_01_0_n_n_wf : DotDims.WF S8x4096x1024 S1024x1024 S8x4096x1024 [2] [1] [0, 1] [0] [] []
  dot_S8x4096x1024_S8x4096x1024_S8x1024x1024_1_1_2_2_0_0_wf : DotDims.WF S8x4096x1024 S8x4096x1024 S8x1024x1024 [1] [1] [2] [2] [0] [0]
  dot_S8x4096x1024_S8x1024x1024_S8x4096x1024_2_1_1_2_0_0_wf : DotDims.WF S8x4096x1024 S8x1024x1024 S8x4096x1024 [2] [1] [1] [2] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf

class Facts : Prop extends Facts₀ where

variable [Facts]
-- ==== Proof.Bits.Body0.lean ====
import proofs.«150717_j88364657148296_2_alg».proof.Proof.Gen.Kernel.Launch
import proofs.«150717_j88364657148296_2_alg».proof.Proof.Gen.Kernel.Skeleton
import proofs.«150717_j88364657148296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating kernel's body, case by case

At a grid point (b, j) the body (1) zeroes the accumulator when j = 0, (2) adds this tile's kᵀ·v to it,
(3) writes it out when j is the last tile. Three control cases meet the grid: j = 0 (zero, then add), 0 < j < 3 (add),
j = 3 (add, then write out). Each triple is stated over whole staging memrefs at read contents; the accumulator's
contents after the body are the payload of its last store. -/

/-- The accumulator is zeroed at this point: the sequence coordinate is 0. -/
abbrev cond0_0 (i : grid0.Coords) : Prop := (Scalar.cmpi .ne (Scalar.extui (Scalar.cmpi .eq (BitVec.ofNat 32 (i 1).val) 0#32)) 0#32) = 1#1
/-- The accumulator is written out at this point: the sequence coordinate is the last. -/
abbrev cond0_1 (i : grid0.Coords) : Prop := k0_cond2 i = 1#1

theorem off2_zero : (![0, 0] : Fin 2 → Nat) = fun _ => 0 := by funext a; fin_cases a <;> rfl
theorem off3_zero : (![0, 0, 0] : Fin 3 → Nat) = fun _ => 0 := by funext a; fin_cases a <;> rfl

/-- A whole-buffer store, read back through the buffer's view, is its payload — whatever was stored before it. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- The middle case: nothing zeroed, nothing written out. The accumulator ends at the old contents plus this tile's product. -/
theorem run0_B (c : Dev nD) (E : Set ℕ) (i : grid0.Coords)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1024x1024 .f32) (harg6 : arg6.IsWhole) (hc0 : ¬cond0_0 i) (hc1 : ¬cond0_1 i)
    (x0 : Vec F S1x1024x1024 .f32) (x1 x2 : Vec F S1024x1024 .bf16) (xi3 : Vec F S1x1024x1024 .bf16) (xs : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 x1 x2 xs)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  rw [read_writes_whole _ _ off2_zero]
  simp only [View.readAt_eq_ld, View.ld_unit_zero (S := S1024x1024) off2_zero, View.ld_unit_zero (S := S1x1024x1024) off3_zero]

set_option maxHeartbeats 1000000 in
/-- The first tile: the accumulator is zeroed, then this tile's product added. -/
theorem run0_A (c : Dev nD) (E : Set ℕ) (i : grid0.Coords)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1024x1024 .f32) (harg6 : arg6.IsWhole) (hc0 : cond0_0 i) (hc1 : ¬cond0_1 i)
    (x0 : Vec F S1x1024x1024 .f32) (x1 x2 : Vec F S1024x1024 .bf16) (xi3 : Vec F S1x1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 x1 x2 (k0_pay1 (F := F)))) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  sl_unfold_run_names
  rw [read_writes_whole _ _ off2_zero]
  simp only [View.readAt_eq_ld, View.ld_unit_zero (S := S1024x1024) off2_zero, View.ld_unit_zero (S := S1x1024x1024) off3_zero]
  exact congrArg (k0_pay2 _ _ _) (View.readCov_unit_zero (S := S1024x1024) _ off2_zero _ _)

set_option maxHeartbeats 1000000 in
/-- The last tile: this tile's product added, then the accumulator written to the output block. -/
theorem run0_C (c : Dev nD) (E : Set ℕ) (i : grid0.Coords)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1024x1024 .f32) (harg6 : arg6.IsWhole) (hc0 : ¬cond0_0 i) (hc1 : cond0_1 i)
    (x0 : Vec F S1x1024x1024 .f32) (x1 x2 : Vec F S1024x1024 .bf16) (xs : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 x2 xs)) ∗ owns (c : Thread nD τ) arg6 fullShare (k0_pay2 x0 x1 x2 xs)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    rw [read_writes_whole _ _ off3_zero]
    simp only [View.readAt_eq_ld, View.ld_unit_zero (S := S1024x1024) off2_zero, View.ld_unit_zero (S := S1x1024x1024) off3_zero]
    exact congrArg k0_pay3 (View.readCov_unit_zero (S := S1024x1024) _ off2_zero _ _)
  iexists _; isplitr
  swap; · iexact HS
  ipureintro
  sl_unfold_run_names
  rw [read_writes_whole _ _ off2_zero]
  simp only [View.readAt_eq_ld, View.ld_unit_zero (S := S1024x1024) off2_zero, View.ld_unit_zero (S := S1x1024x1024) off3_zero]

end Cert.Kernel.Hand

end
-- ==== Proof.Bits.Region0.lean ====
import proofs.«150717_j88364657148296_2_alg».proof.Proof.Gen.Kernel.Launch
import proofs.«150717_j88364657148296_2_alg».proof.Proof.Gen.Kernel.Skeleton
import proofs.«150717_j88364657148296_2_alg».proof.Proof.Gen.Kernel.Points
import proofs.«150717_j88364657148296_2_alg».proof.Proof.Bits.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The accumulating region: its proof data and its body obligation

Stated at a PARAMETER `V`, the core's buffer contents when the region is entered. The grid is 8 batch entries by 4
sequence tiles, the tile index fastest; at linear position n the tile is n % 4. The accumulator after position n is
`acc0 … n`: reset to the tile's product at a first tile, the previous contents plus the tile's product otherwise. The output
window holds the accumulator, recast, at a last tile, and is idle (handed back as found, not written back) elsewhere. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output window is idle -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The accumulator, point by point -/

/-- The scratch accumulator as a memref. -/
abbrev scM0 : Memref sig .tc .vmem S1024x1024 .f32 := Memref.whole cc0_scratch0

/-- What the accumulator holds after the body at linear position `n`. -/
def acc0 (c : Dev nD) : (n : ℕ) → n < cfg0.N → Vec F S1024x1024 .f32
  | 0, hn => k0_pay2 (iblk0 V c 0 ⟨0, hn⟩) (iblk0 V c 1 ⟨0, hn⟩) (iblk0 V c 2 ⟨0, hn⟩) (k0_pay1 (F := F))
  | n + 1, hn =>
    if (n + 1) % 4 = 0 then k0_pay2 (iblk0 V c 0 ⟨n + 1, hn⟩) (iblk0 V c 1 ⟨n + 1, hn⟩) (iblk0 V c 2 ⟨n + 1, hn⟩) (k0_pay1 (F := F))
    else k0_pay2 (iblk0 V c 0 ⟨n + 1, hn⟩) (iblk0 V c 1 ⟨n + 1, hn⟩) (iblk0 V c 2 ⟨n + 1, hn⟩) (acc0 c n (Nat.lt_of_succ_lt hn))

/-- At a first tile the accumulator restarts from zero. -/
theorem acc0_first (c : Dev nD) (t : Fin cfg0.N) (h : t.val % 4 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => exact (if_pos h).trans rfl

/-- At a later tile it adds to what the point before left. -/
theorem acc0_next (c : Dev nD) (t : Fin cfg0.N) (h : ¬t.val % 4 = 0) :
    acc0 V c t.val t.isLt = k0_pay2 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scoped buffers of the core that are neither a staging buffer of this region nor its accumulator, each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant (every scoped buffer no window stages at anything, the generator register at some state) with the
    accumulator split off as a memref. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- Before position `n`: at the start the class invariant; afterwards the accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-- At any position the invariant gives the class invariant back: the accumulator's named contents are forgotten. -/
theorem PhiS0_any (c : Dev nD) (n : ℕ) (h : n ≤ cfg0.N) : PhiS0 V c n h ⊢ Pipeline.ΦA spec0 c := by
  cases n with
  | zero => exact Idealize.SL.BI.Entails.refl _
  | succ n =>
    rw [PhiS0_succ, PhiA0_eq]
    iintro ⟨⟨HS, Ho⟩, Hg⟩
    isplitr [Hg]
    · isplitl [HS]; · iexists _; iexact HS
      iexact Ho
    iexact Hg

/-- The same with the accumulator split off, at anything. -/
theorem PhiS0_split (c : Dev nD) (n : ℕ) (h : n ≤ cfg0.N) :
    PhiS0 V c n h ⊢ iprop(iprop((∃ d, owns (c : Thread nD τ) scM0 fullShare d) ∗ others0 c) ∗ (∃ r, prngReg c r)) := by
  rw [← PhiA0_eq]; exact PhiS0_any V c n h

/-! ## The proof data -/

/-- The region's proof data on core `c`: the arrays as the region finds them; after the body each input's buffer at its
    block and the output's at the accumulator recast; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the tile index says which case the point is in; the
    invariant hands the body the accumulator (at anything at a first tile, at what the point before left otherwise) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  have hN : t.val < 32 := lt_of_lt_of_eq t.isLt (show cfg0.N = 32 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_first V c t h0, PhiS0_castSucc V c t]
    iintro ⟨HP, Ho, ⟨%d0, H0⟩, ⟨%d1, H1⟩, ⟨%d2, H2⟩, ⟨%d3, H3⟩⟩
    ihave HP' := (PhiS0_split V c _ _) $$ HP
    icases HP' with ⟨⟨HS, Hoth⟩, Hg⟩
    iapply (run0_A c Set.univ (grid0.coords t) _ _ _ _ _ _ _ _ _ _ hc0 hc1 (iblk0 V c 0 t) (iblk0 V c 1 t) (iblk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬cond0_0 (grid0.coords t) := fun h => h0 ((hcond0_0 t).mp h)
    rw [acc0_next V c t h0, PhiS0_castSucc V c t, PhiS0_pos V c _ _ hz]
    by_cases h1 : t.val % 4 = 3
    · have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3, acc0_next V c t h0]
      iintro ⟨⟨⟨HS, Hoth⟩, Hg⟩, Ho, ⟨%d0, H0⟩, ⟨%d1, H1⟩, ⟨%d2, H2⟩, ⟨%d3, H3⟩⟩
      iapply (run0_C c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hoth⟩, Hg⟩, Ho, ⟨%d0, H0⟩, ⟨%d1, H1⟩, ⟨%d2, H2⟩, ⟨%d3, H3⟩⟩
      iapply (run0_B c Set.univ (grid0.coords t) _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Bits.Body1.lean ====
import proofs.«150717_j88364657148296_2_alg».proof.Proof.Gen.Kernel.Launch
import proofs.«150717_j88364657148296_2_alg».proof.Proof.Gen.Kernel.Skeleton
import proofs.«150717_j88364657148296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The output kernel's body

At a grid point (b, j) the body reads a tile of 512 rows of x, the two weight matrices, the bias and batch entry b's
key-value matrix, and stores the tile's result whole: one case, one store. -/

theorem off3_zero' : (![0, 0, 0] : Fin 3 → Nat) = fun _ => 0 := by funext a; fin_cases a <;> rfl

/-- A whole-buffer store, read back through the buffer's view, is its payload. -/
theorem read_writes_whole' {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

theorem off1_zero : (![0] : Fin 1 → Nat) = fun _ => 0 := by funext a; fin_cases a; rfl
theorem off2_zero' : (![0, 0] : Fin 2 → Nat) = fun _ => 0 := by funext a; fin_cases a <;> rfl

set_option maxHeartbeats 1000000 in
/-- The body on whole staging memrefs, the five inputs at read contents and the output at anything: the inputs are left
    as they were and the output's buffer holds the one payload of the five input blocks. -/
theorem run1 (c : Dev nD) (E : Set ℕ) (i : grid1.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x1024x1024 .bf16) (harg6 : arg6.IsWhole) (arg7 : Memref sig .tc .vmem S1x512x1024 .f32) (harg7 : arg7.IsWhole)
    (x0 : Vec F S1x512x1024 .f32) (x1 x2 : Vec F S1024x1024 .bf16) (x3 : Vec F S1024 .f32) (x4 : Vec F S1x1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay1 x0 x1 x4 x2 x3)) -∗ K ⟨⟩))
      ⊢ wp frame (wpE (defs₀ (F := F)) Variants.none c none) E (cc1__out_kernel i arg2 harg2 arg3 harg3 arg4 harg4 arg5 harg5 arg6 harg6 arg7 harg7) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  sl_unfold_run_names
  rw [read_writes_whole' _ _ off3_zero']
  simp only [View.readAt_eq_ld, View.ld_unit_zero (S := S1024x1024) off2_zero', View.ld_unit_zero (S := S1x1024x1024) off3_zero',
    View.ld_unit_zero (S := S1x512x1024) off3_zero', View.ld_unit_zero (S := S1024) off1_zero]

end Cert.Kernel.Hand

end
-- ==== Proof.Bits.Region1.lean ====
import proofs.«150717_j88364657148296_2_alg».proof.Proof.Gen.Kernel.Launch
import proofs.«150717_j88364657148296_2_alg».proof.Proof.Gen.Kernel.Skeleton
import proofs.«150717_j88364657148296_2_alg».proof.Proof.Gen.Kernel.Points
import proofs.«150717_j88364657148296_2_alg».proof.Proof.Bits.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The output region: its proof data and its body obligation

Stated at a PARAMETER `V`, the core's buffer contents when the region is entered. No window is idle, nothing is carried
between points: after the body each input's buffer holds its block and the output's the one payload of the input blocks. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer at point `t`. -/
def out1 (c : Dev nD) (t : Fin cfg1.N) : Vec F S1x512x1024 .f32 :=
  k1_pay1 (iblk1 V c 0 t) (iblk1 V c 1 t) (iblk1 V c 4 t) (iblk1 V c 2 t) (iblk1 V c 3 t)

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' memrefs hold their blocks, so the body's triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply (run1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Bits.Run.lean ====
import proofs.«150717_j88364657148296_2_alg».proof.Proof.Gen.Kernel.Launch
import proofs.«150717_j88364657148296_2_alg».proof.Proof.Gen.Kernel.Skeleton
import proofs.«150717_j88364657148296_2_alg».proof.Proof.Gen.Kernel.Points
import proofs.«150717_j88364657148296_2_alg».proof.Proof.Bits.Region0
import proofs.«150717_j88364657148296_2_alg».proof.Proof.Bits.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's three items from the launch to the return

Four host conversions (each weight matrix narrowed), then the accumulating region, then the output region. The buffer
contents at each boundary are a fold from the launch memory: after the conversions; then with the first region's arrays at
what its write-backs leave; then with the second region's. Every weakly fair execution terminates and the final memory
holds every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => m (c, b)
/-- After the four conversions (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- The conversions write none of the six arguments. -/
theorem W1_main_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg1 (c : Dev nD) : W1 m c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg2 (c : Dev nD) : W1 m c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg3 (c : Dev nD) : W1 m c (Proc.devRef .tc main_arg3) = m ((c : Thread nD τ).loc main_arg3) :=
  (StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg4 (c : Dev nD) : W1 m c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg5 (c : Dev nD) : W1 m c (Proc.devRef .tc main_arg5) = m ((c : Thread nD τ).loc main_arg5) :=
  (StableHlo.after_of_forall_not_mem (b := Proc.devRef .tc main_arg5) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl

/-- The input array is window 0 of both regions, read and never written. -/
theorem W2_main_arg0 (c : Dev nD) : W2 m c (Proc.devRef .tc main_arg0) = m ((c : Thread nD τ).loc main_arg0) :=
  (W2_arr m c 0).trans ((((dat0 (V1 m) c).arrAt_in 0 rfl _).trans (A_eq0 (V1 m) c 0)).trans (W1_main_arg0 m c))
theorem W3_main_arg0 (c : Dev nD) : W3 m c (Proc.devRef .tc main_arg0) = m ((c : Thread nD τ).loc main_arg0) :=
  (W3_arr m c 0).trans ((((dat1 (V2 m) c).arrAt_in 0 rfl _).trans (A_eq1 (V2 m) c 0)).trans (W2_main_arg0 m c))
/-- The weight matrices are no window's array. -/
theorem W3_main_arg1 (c : Dev nD) : W3 m c (Proc.devRef .tc main_arg1) = m ((c : Thread nD τ).loc main_arg1) :=
  (W3_of_ne m c main_arg1 (by decide)).trans ((W2_of_ne m c main_arg1 (by decide)).trans (W1_main_arg1 m c))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_main_arg2 m c))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_main_arg3 m c))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_main_arg4 m c))
/-- The bias is window 3 of the second region, read and never written. -/
theorem W3_main_arg5 (c : Dev nD) : W3 m c (Proc.devRef .tc main_arg5) = m ((c : Thread nD τ).loc main_arg5) :=
  (W3_arr m c 3).trans ((((dat1 (V2 m) c).arrAt_in 3 rfl _).trans (A_eq1 (V2 m) c 3)).trans
    ((W2_of_ne m c main_arg5 (by decide)).trans (W1_main_arg5 m c)))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- After the last point of the first region the invariant gives the class invariant back. -/
theorem Phi0_last (c : Dev nD) : (pdats m 0 c).Φ (Fin.last _) ⊢ Pipeline.ΦA spec0 c := by
  show PhiS0 (V1 m) c (Fin.last cfg0.N).val (Nat.le_of_lt_succ (Fin.last cfg0.N).isLt) ⊢ _
  exact PhiS0_any (V1 m) c _ _

/-! ## The regions as segments -/

set_option backward.isDefEq.respectTransparency.types false in
/-- REGION 0 over the thread state: entered from every unscoped buffer at the boundary's contents, left at the next
    boundary's. Its arrays are split out of the unscoped buffers and put back at the exit contents; the generator register
    goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary's contents, left at the next
    boundary's. Its arrays are split out of the unscoped buffers and put back at the exit contents; the generator register
    goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.Kernel.Hand

end
-- ==== Proof.Ideal.Body0.lean ====
import proofs.«150717_j88364657148296_2_alg».proof.Proof.Gen.KernelIdeal.Launch
import proofs.«150717_j88364657148296_2_alg».proof.Proof.Gen.KernelIdeal.Skeleton
import proofs.«150717_j88364657148296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating kernel's body, case by case

At a grid point (b, j) the body (1) zeroes the accumulator when j = 0, (2) adds this tile's kᵀ·v to it,
(3) writes it out when j is the last tile. Three control cases meet the grid: j = 0 (zero, then add), 0 < j < 3 (add),
j = 3 (add, then write out). Each triple is stated over whole staging memrefs at read contents; the accumulator's
contents after the body are the payload of its last store. -/

/-- The accumulator is zeroed at this point: the sequence coordinate is 0. -/
abbrev cond0_0 (i : grid0.Coords) : Prop := (Scalar.cmpi .ne (Scalar.extui (Scalar.cmpi .eq (BitVec.ofNat 32 (i 1).val) 0#32)) 0#32) = 1#1
/-- The accumulator is written out at this point: the sequence coordinate is the last. -/
abbrev cond0_1 (i : grid0.Coords) : Prop := k0_cond2 i = 1#1

theorem off2_zero : (![0, 0] : Fin 2 → Nat) = fun _ => 0 := by funext a; fin_cases a <;> rfl
theorem off3_zero : (![0, 0, 0] : Fin 3 → Nat) = fun _ => 0 := by funext a; fin_cases a <;> rfl

/-- A whole-buffer store, read back through the buffer's view, is its payload — whatever was stored before it. -/
theorem read_writes_whole {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

set_option maxHeartbeats 1000000 in
/-- The middle case: nothing zeroed, nothing written out. The accumulator ends at the old contents plus this tile's product. -/
theorem run0_B (c : Dev nD) (E : Set ℕ) (i : grid0.Coords)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1024x1024 .f32) (harg6 : arg6.IsWhole) (hc0 : ¬cond0_0 i) (hc1 : ¬cond0_1 i)
    (x0 : Vec F S1x1024x1024 .f32) (x1 x2 : Vec F S1024x1024 .bf16) (xi3 : Vec F S1x1024x1024 .bf16) (xs : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 x1 x2 xs)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  rw [read_writes_whole _ _ off2_zero]
  simp only [View.readAt_eq_ld, View.ld_unit_zero (S := S1024x1024) off2_zero, View.ld_unit_zero (S := S1x1024x1024) off3_zero]

set_option maxHeartbeats 1000000 in
/-- The first tile: the accumulator is zeroed, then this tile's product added. -/
theorem run0_A (c : Dev nD) (E : Set ℕ) (i : grid0.Coords)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1024x1024 .f32) (harg6 : arg6.IsWhole) (hc0 : cond0_0 i) (hc1 : ¬cond0_1 i)
    (x0 : Vec F S1x1024x1024 .f32) (x1 x2 : Vec F S1024x1024 .bf16) (xi3 : Vec F S1x1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare (k0_pay2 x0 x1 x2 (k0_pay1 (F := F)))) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  sl_unfold_run_names
  rw [read_writes_whole _ _ off2_zero]
  simp only [View.readAt_eq_ld, View.ld_unit_zero (S := S1024x1024) off2_zero, View.ld_unit_zero (S := S1x1024x1024) off3_zero]
  exact congrArg (k0_pay2 _ _ _) (View.readCov_unit_zero (S := S1024x1024) _ off2_zero _ _)

set_option maxHeartbeats 1000000 in
/-- The last tile: this tile's product added, then the accumulator written to the output block. -/
theorem run0_C (c : Dev nD) (E : Set ℕ) (i : grid0.Coords)
    (arg2 : Memref sig .tc .vmem S1x1024x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1x1024x1024 .bf16) (harg5 : arg5.IsWhole)
    (arg6 : Memref sig .tc .vmem S1024x1024 .f32) (harg6 : arg6.IsWhole) (hc0 : ¬cond0_0 i) (hc1 : cond0_1 i)
    (x0 : Vec F S1x1024x1024 .f32) (x1 x2 : Vec F S1024x1024 .bf16) (xs : Vec F S1024x1024 .f32)
    (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 x0 x1 x2 xs)) ∗ owns (c : Thread nD τ) arg6 fullShare (k0_pay2 x0 x1 x2 xs)) -∗ K ⟨⟩))
      ⊢ wp frame (wpE (defs₀ (F := F)) Variants.none c none) E (cc0__kv_kernel i arg2 harg2 arg3 harg3 arg4 harg4 arg5 harg5 arg6 harg6) K := by
  simp only [cc0__kv_kernel_eq_skeleton]; unfold cc0__kv_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc0 | exact hc1)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    rw [read_writes_whole _ _ off3_zero]
    simp only [View.readAt_eq_ld, View.ld_unit_zero (S := S1024x1024) off2_zero, View.ld_unit_zero (S := S1x1024x1024) off3_zero]
    exact congrArg k0_pay3 (View.readCov_unit_zero (S := S1024x1024) _ off2_zero _ _)
  iexists _; isplitr
  swap; · iexact HS
  ipureintro
  sl_unfold_run_names
  rw [read_writes_whole _ _ off2_zero]
  simp only [View.readAt_eq_ld, View.ld_unit_zero (S := S1024x1024) off2_zero, View.ld_unit_zero (S := S1x1024x1024) off3_zero]

end Cert.KernelIdeal.Hand

end
-- ==== Proof.Ideal.Region0.lean ====
import proofs.«150717_j88364657148296_2_alg».proof.Proof.Gen.KernelIdeal.Launch
import proofs.«150717_j88364657148296_2_alg».proof.Proof.Gen.KernelIdeal.Skeleton
import proofs.«150717_j88364657148296_2_alg».proof.Proof.Gen.KernelIdeal.Points
import proofs.«150717_j88364657148296_2_alg».proof.Proof.Ideal.Body0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The accumulating region: its proof data and its body obligation

Stated at a PARAMETER `V`, the core's buffer contents when the region is entered. The grid is 8 batch entries by 4
sequence tiles, the tile index fastest; at linear position n the tile is n % 4. The accumulator after position n is
`acc0 … n`: reset to the tile's product at a first tile, the previous contents plus the tile's product otherwise. The output
window holds the accumulator, recast, at a last tile, and is idle (handed back as found, not written back) elsewhere. -/

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The conditions in closed form, and where the output window is idle -/

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-! ## The accumulator, point by point -/

/-- The scratch accumulator as a memref. -/
abbrev scM0 : Memref sig .tc .vmem S1024x1024 .f32 := Memref.whole cc0_scratch0

/-- What the accumulator holds after the body at linear position `n`. -/
def acc0 (c : Dev nD) : (n : ℕ) → n < cfg0.N → Vec F S1024x1024 .f32
  | 0, hn => k0_pay2 (iblk0 V c 0 ⟨0, hn⟩) (iblk0 V c 1 ⟨0, hn⟩) (iblk0 V c 2 ⟨0, hn⟩) (k0_pay1 (F := F))
  | n + 1, hn =>
    if (n + 1) % 4 = 0 then k0_pay2 (iblk0 V c 0 ⟨n + 1, hn⟩) (iblk0 V c 1 ⟨n + 1, hn⟩) (iblk0 V c 2 ⟨n + 1, hn⟩) (k0_pay1 (F := F))
    else k0_pay2 (iblk0 V c 0 ⟨n + 1, hn⟩) (iblk0 V c 1 ⟨n + 1, hn⟩) (iblk0 V c 2 ⟨n + 1, hn⟩) (acc0 c n (Nat.lt_of_succ_lt hn))

/-- At a first tile the accumulator restarts from zero. -/
theorem acc0_first (c : Dev nD) (t : Fin cfg0.N) (h : t.val % 4 = 0) :
    acc0 V c t.val t.isLt = k0_pay2 (iblk0 V c 0 t) (iblk0 V c 1 t) (iblk0 V c 2 t) (k0_pay1 (F := F)) := by
  obtain ⟨n, hn⟩ := t
  cases n with
  | zero => rfl
  | succ n => exact (if_pos h).trans rfl

/-- At a later tile it adds to what the point before left. -/
theorem acc0_next (c : Dev nD) (t : Fin cfg0.N) (h : ¬t.val % 4 = 0) :
    acc0 V c t.val t.isLt = k0_pay2 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd (Nat.zero_mod _) h
  | succ n => exact (if_neg h).trans rfl

/-! ## The region invariant -/

/-- The scoped buffers of the core that are neither a staging buffer of this region nor its accumulator, each at anything. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant (every scoped buffer no window stages at anything, the generator register at some state) with the
    accumulator split off as a memref. -/
theorem PhiA0_eq (c : Dev nD) :
    (Pipeline.ΦA spec0 c : sProp 𝕄)
      = iprop(iprop((∃ d, owns (c : Thread nD τ) scM0 fullShare d) ∗ others0 c) ∗ (∃ r, prngReg c r)) := by
  unfold Pipeline.ΦA others0; rw [scopedRest0_eq]; simp only [scM0, owns_whole]; try rfl

/-- Before position `n`: at the start the class invariant; afterwards the accumulator at what the point before left. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ others0 c) ∗ (∃ r, prngReg c r))

theorem PhiS0_succ (c : Dev nD) (n : ℕ) (hn : n < cfg0.N) :
    PhiS0 V c (n + 1) hn = iprop(iprop(owns (c : Thread nD τ) scM0 fullShare (acc0 V c n hn) ∗ others0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ others0 c) ∗ (∃ r, prngReg c r)) := by
  cases n with
  | zero => exact absurd rfl hz
  | succ n => rfl

/-- At any position the invariant gives the class invariant back: the accumulator's named contents are forgotten. -/
theorem PhiS0_any (c : Dev nD) (n : ℕ) (h : n ≤ cfg0.N) : PhiS0 V c n h ⊢ Pipeline.ΦA spec0 c := by
  cases n with
  | zero => exact Idealize.SL.BI.Entails.refl _
  | succ n =>
    rw [PhiS0_succ, PhiA0_eq]
    iintro ⟨⟨HS, Ho⟩, Hg⟩
    isplitr [Hg]
    · isplitl [HS]; · iexists _; iexact HS
      iexact Ho
    iexact Hg

/-- The same with the accumulator split off, at anything. -/
theorem PhiS0_split (c : Dev nD) (n : ℕ) (h : n ≤ cfg0.N) :
    PhiS0 V c n h ⊢ iprop(iprop((∃ d, owns (c : Thread nD τ) scM0 fullShare d) ∗ others0 c) ∗ (∃ r, prngReg c r)) := by
  rw [← PhiA0_eq]; exact PhiS0_any V c n h

/-! ## The proof data -/

/-- The region's proof data on core `c`: the arrays as the region finds them; after the body each input's buffer at its
    block and the output's at the accumulator recast; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the tile index says which case the point is in; the
    invariant hands the body the accumulator (at anything at a first tile, at what the point before left otherwise) and takes it
    back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
      unfold Dat.leavesExact; rw [liveAt0_0 t], after0_0]
  rw [show (dat0 V c).leavesExact 1 t = owns (c : Thread nD τ) (st0_1 t) fullShare ((dat0 V c).after 1 t) from by
      unfold Dat.leavesExact; rw [liveAt0_1 t], after0_1]
  rw [show (dat0 V c).leavesExact 2 t = owns (c : Thread nD τ) (st0_2 t) fullShare ((dat0 V c).after 2 t) from by
      unfold Dat.leavesExact; rw [liveAt0_2 t], after0_2]
  have hN : t.val < 32 := lt_of_lt_of_eq t.isLt (show cfg0.N = 32 from N_0)
  by_cases h0 : t.val % 4 = 0
  · have h1 : ¬t.val % 4 = 3 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 t hc1) (noFlush0_3 t hc1)]
    rw [acc0_first V c t h0, PhiS0_castSucc V c t]
    iintro ⟨HP, Ho, ⟨%d0, H0⟩, ⟨%d1, H1⟩, ⟨%d2, H2⟩, ⟨%d3, H3⟩⟩
    ihave HP' := (PhiS0_split V c _ _) $$ HP
    icases HP' with ⟨⟨HS, Hoth⟩, Hg⟩
    iapply (run0_A c Set.univ (grid0.coords t) _ _ _ _ _ _ _ _ _ _ hc0 hc1 (iblk0 V c 0 t) (iblk0 V c 1 t) (iblk0 V c 2 t) _ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hoth Hg]
    · isplitr [Hg]
      · isplitl [HS]; · iexact HS
        iexact Hoth
      iexact Hg
    isplitl [Ho]; · iexact Ho
    isplitl [H0]; · iexact H0
    isplitl [H1]; · iexact H1
    isplitl [H2]; · iexact H2
    iexists _; iexact H3
  · have hz : t.val ≠ 0 := fun e => h0 (by rw [e])
    have hc0 : ¬cond0_0 (grid0.coords t) := fun h => h0 ((hcond0_0 t).mp h)
    rw [acc0_next V c t h0, PhiS0_castSucc V c t, PhiS0_pos V c _ _ hz]
    by_cases h1 : t.val % 4 = 3
    · have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3, acc0_next V c t h0]
      iintro ⟨⟨⟨HS, Hoth⟩, Hg⟩, Ho, ⟨%d0, H0⟩, ⟨%d1, H1⟩, ⟨%d2, H2⟩, ⟨%d3, H3⟩⟩
      iapply (run0_C c Set.univ (grid0.coords t) _ _ _ _ _ _ _ _ _ _ hc0 hc1 (iblk0 V c 0 t) (iblk0 V c 1 t) (iblk0 V c 2 t) _ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, Hoth⟩, Hg⟩, Ho, ⟨%d0, H0⟩, ⟨%d1, H1⟩, ⟨%d2, H2⟩, ⟨%d3, H3⟩⟩
      iapply (run0_B c Set.univ (grid0.coords t) _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitr [Hg]
        · isplitl [HS]; · iexact HS
          iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Ideal.Body1.lean ====
import proofs.«150717_j88364657148296_2_alg».proof.Proof.Gen.KernelIdeal.Launch
import proofs.«150717_j88364657148296_2_alg».proof.Proof.Gen.KernelIdeal.Skeleton
import proofs.«150717_j88364657148296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The output kernel's body

At a grid point (b, j) the body reads a tile of 512 rows of x, the two weight matrices, the bias and batch entry b's
key-value matrix, and stores the tile's result whole: one case, one store. -/

theorem off3_zero' : (![0, 0, 0] : Fin 3 → Nat) = fun _ => 0 := by funext a; fin_cases a <;> rfl

/-- A whole-buffer store, read back through the buffer's view, is its payload. -/
theorem read_writes_whole' {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩), View.canon_cons_unit_zero rfl]

theorem off1_zero : (![0] : Fin 1 → Nat) = fun _ => 0 := by funext a; fin_cases a; rfl
theorem off2_zero' : (![0, 0] : Fin 2 → Nat) = fun _ => 0 := by funext a; fin_cases a <;> rfl

set_option maxHeartbeats 1000000 in
/-- The body on whole staging memrefs, the five inputs at read contents and the output at anything: the inputs are left
    as they were and the output's buffer holds the one payload of the five input blocks. -/
theorem run1 (c : Dev nD) (E : Set ℕ) (i : grid1.Coords)
    (arg2 : Memref sig .tc .vmem S1x512x1024 .f32) (harg2 : arg2.IsWhole) (arg3 : Memref sig .tc .vmem S1024x1024 .bf16) (harg3 : arg3.IsWhole)
    (arg4 : Memref sig .tc .vmem S1024x1024 .bf16) (harg4 : arg4.IsWhole) (arg5 : Memref sig .tc .vmem S1024 .f32) (harg5 : arg5.IsWhole)
    (arg6 : Memref sig .tc .vmem S1x1024x1024 .bf16) (harg6 : arg6.IsWhole) (arg7 : Memref sig .tc .vmem S1x512x1024 .f32) (harg7 : arg7.IsWhole)
    (x0 : Vec F S1x512x1024 .f32) (x1 x2 : Vec F S1024x1024 .bf16) (x3 : Vec F S1024 .f32) (x4 : Vec F S1x1024x1024 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (k1_pay1 x0 x1 x4 x2 x3)) -∗ K ⟨⟩))
      ⊢ wp frame (wpE (defs₀ (F := F)) Variants.none c none) E (cc1__out_kernel i arg2 harg2 arg3 harg3 arg4 harg4 arg5 harg5 arg6 harg6 arg7 harg7) K := by
  simp only [cc1__out_kernel_eq_skeleton]; unfold cc1__out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  iexists _; isplitr
  swap; · iexact H5
  ipureintro
  sl_unfold_run_names
  rw [read_writes_whole' _ _ off3_zero']
  simp only [View.readAt_eq_ld, View.ld_unit_zero (S := S1024x1024) off2_zero', View.ld_unit_zero (S := S1x1024x1024) off3_zero',
    View.ld_unit_zero (S := S1x512x1024) off3_zero', View.ld_unit_zero (S := S1024) off1_zero]

end Cert.KernelIdeal.Hand

end
-- ==== Proof.Ideal.Region1.lean ====
import proofs.«150717_j88364657148296_2_alg».proof.Proof.Gen.KernelIdeal.Launch
import proofs.«150717_j88364657148296_2_alg».proof.Proof.Gen.KernelIdeal.Skeleton
import proofs.«150717_j88364657148296_2_alg».proof.Proof.Gen.KernelIdeal.Points
import proofs.«150717_j88364657148296_2_alg».proof.Proof.Ideal.Body1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The output region: its proof data and its body obligation

Stated at a PARAMETER `V`, the core's buffer contents when the region is entered. No window is idle, nothing is carried
between points: after the body each input's buffer holds its block and the output's the one payload of the input blocks. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- What the body leaves in the output window's buffer at point `t`. -/
def out1 (c : Dev nD) (t : Fin cfg1.N) : Vec F S1x512x1024 .f32 :=
  k1_pay1 (iblk1 V c 0 t) (iblk1 V c 1 t) (iblk1 V c 4 t) (iblk1 V c 2 t) (iblk1 V c 3 t)

/-- The region's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' memrefs hold their blocks, so the body's triple applies; the invariant and the core's
    `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  unfold out1
  iintro ⟨HΦ, Ho, ⟨%d0, H0⟩, ⟨%d1, H1⟩, ⟨%d2, H2⟩, ⟨%d3, H3⟩, ⟨%d4, H4⟩, ⟨%d5, H5⟩⟩
  iapply (run1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Ideal.Run.lean ====
import proofs.«150717_j88364657148296_2_alg».proof.Proof.Gen.KernelIdeal.Launch
import proofs.«150717_j88364657148296_2_alg».proof.Proof.Gen.KernelIdeal.Skeleton
import proofs.«150717_j88364657148296_2_alg».proof.Proof.Gen.KernelIdeal.Points
import proofs.«150717_j88364657148296_2_alg».proof.Proof.Ideal.Region0
import proofs.«150717_j88364657148296_2_alg».proof.Proof.Ideal.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's three items from the launch to the return

Four host conversions (each weight matrix narrowed), then the accumulating region, then the output region. The buffer
contents at each boundary are a fold from the launch memory: after the conversions; then with the first region's arrays at
what its write-backs leave; then with the second region's. Every weakly fair execution terminates and the final memory
holds every unscoped buffer at the last boundary's contents. -/

variable (m : (ℓ : Loc nD τ sig) → Buf (Elt F) ℓ) (ρ : Dev nD → PrngReg)

/-- Core `c`'s buffers at launch. -/
abbrev W0 : Dev nD → Valuation τ sig (Elt F) := fun c b => m (c, b)
/-- After the four conversions (the first region's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- At the second region's exit. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The arguments end as launched -/

/-- The conversions write none of the six arguments. -/
theorem W1_main_arg0 (c : Dev nD) : W1 m c (Proc.devRef .tc main_arg0) = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg1 (c : Dev nD) : W1 m c (Proc.devRef .tc main_arg1) = m ((c : Thread nD τ).loc main_arg1) :=
  (StableHlo.after_of_forall_not_mem (b := Proc.devRef .tc main_arg1) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg2 (c : Dev nD) : W1 m c (Proc.devRef .tc main_arg2) = m ((c : Thread nD τ).loc main_arg2) :=
  (StableHlo.after_of_forall_not_mem (b := Proc.devRef .tc main_arg2) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg3 (c : Dev nD) : W1 m c (Proc.devRef .tc main_arg3) = m ((c : Thread nD τ).loc main_arg3) :=
  (StableHlo.after_of_forall_not_mem (b := Proc.devRef .tc main_arg3) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg4 (c : Dev nD) : W1 m c (Proc.devRef .tc main_arg4) = m ((c : Thread nD τ).loc main_arg4) :=
  (StableHlo.after_of_forall_not_mem (b := Proc.devRef .tc main_arg4) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl
theorem W1_main_arg5 (c : Dev nD) : W1 m c (Proc.devRef .tc main_arg5) = m ((c : Thread nD τ).loc main_arg5) :=
  (StableHlo.after_of_forall_not_mem (b := Proc.devRef .tc main_arg5) _ _ (List.forall_iff_forall_mem.mp (by
          simp only [hostOps0, List.Forall, StableHlo.nullary_writes, StableHlo.unary_writes, StableHlo.binary_writes, Finset.mem_singleton]
          repeat' apply And.intro
          all_goals exact StableHlo.devRef_ne_of_ne (by decide)))).trans rfl

/-- The input array is window 0 of both regions, read and never written. -/
theorem W2_main_arg0 (c : Dev nD) : W2 m c (Proc.devRef .tc main_arg0) = m ((c : Thread nD τ).loc main_arg0) :=
  (W2_arr m c 0).trans ((((dat0 (V1 m) c).arrAt_in 0 rfl _).trans (A_eq0 (V1 m) c 0)).trans (W1_main_arg0 m c))
theorem W3_main_arg0 (c : Dev nD) : W3 m c (Proc.devRef .tc main_arg0) = m ((c : Thread nD τ).loc main_arg0) :=
  (W3_arr m c 0).trans ((((dat1 (V2 m) c).arrAt_in 0 rfl _).trans (A_eq1 (V2 m) c 0)).trans (W2_main_arg0 m c))
/-- The weight matrices are no window's array. -/
theorem W3_main_arg1 (c : Dev nD) : W3 m c (Proc.devRef .tc main_arg1) = m ((c : Thread nD τ).loc main_arg1) :=
  (W3_of_ne m c main_arg1 (by decide)).trans ((W2_of_ne m c main_arg1 (by decide)).trans (W1_main_arg1 m c))
theorem W3_main_arg2 (c : Dev nD) : W3 m c (Proc.devRef .tc main_arg2) = m ((c : Thread nD τ).loc main_arg2) :=
  (W3_of_ne m c main_arg2 (by decide)).trans ((W2_of_ne m c main_arg2 (by decide)).trans (W1_main_arg2 m c))
theorem W3_main_arg3 (c : Dev nD) : W3 m c (Proc.devRef .tc main_arg3) = m ((c : Thread nD τ).loc main_arg3) :=
  (W3_of_ne m c main_arg3 (by decide)).trans ((W2_of_ne m c main_arg3 (by decide)).trans (W1_main_arg3 m c))
theorem W3_main_arg4 (c : Dev nD) : W3 m c (Proc.devRef .tc main_arg4) = m ((c : Thread nD τ).loc main_arg4) :=
  (W3_of_ne m c main_arg4 (by decide)).trans ((W2_of_ne m c main_arg4 (by decide)).trans (W1_main_arg4 m c))
/-- The bias is window 3 of the second region, read and never written. -/
theorem W3_main_arg5 (c : Dev nD) : W3 m c (Proc.devRef .tc main_arg5) = m ((c : Thread nD τ).loc main_arg5) :=
  (W3_arr m c 3).trans ((((dat1 (V2 m) c).arrAt_in 3 rfl _).trans (A_eq1 (V2 m) c 3)).trans
    ((W2_of_ne m c main_arg5 (by decide)).trans (W1_main_arg5 m c)))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m c) ∗ ∃ r, prngReg c r)

/-- After the last point of the first region the invariant gives the class invariant back. -/
theorem Phi0_last (c : Dev nD) : (pdats m 0 c).Φ (Fin.last _) ⊢ Pipeline.ΦA spec0 c := by
  show PhiS0 (V1 m) c (Fin.last cfg0.N).val (Nat.le_of_lt_succ (Fin.last cfg0.N).isLt) ⊢ _
  exact PhiS0_any (V1 m) c _ _

/-! ## The regions as segments -/

set_option backward.isDefEq.respectTransparency.types false in
/-- REGION 0 over the thread state: entered from every unscoped buffer at the boundary's contents, left at the next
    boundary's. Its arrays are split out of the unscoped buffers and put back at the exit contents; the generator register
    goes into the invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Phi0_last m c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the boundary's contents, left at the next
    boundary's. Its arrays are split out of the unscoped buffers and put back at the exit contents; the generator register
    goes into the invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.KernelIdeal.Hand

end
-- ==== Proof.PayIdeal.lean ====
/-
  The two kernels' arithmetic at one index, over the extended reals.

  A matrix product into a zero accumulator is the plain sum over its one contracted axis; a change of float format is the
  identity; a cast that adds or drops a leading unit axis reads the same element. So at (e, f) the accumulating kernel's
  update is  acc[e,f] + ∑ s, (∑ d, x[s,d]·Wk[e,d]) · (∑ d, x[s,d]·Wv[f,d])  over the tile's rows s, and at row r,
  column g the output kernel's result is  (∑ f, (∑ e, (∑ d, x[r,d]·Wq[e,d]) · kv[e,f]) · Wp[g,f]) + bp[g] + x[r,g].
-/
import proofs.«150717_j88364657148296_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## The four matrix products, read at an index -/

theorem mm_rows_l (j : S1024x1024.Idx) (q : dot_S1024x1024_S1024x1024_S1024x1024_1_1_0_0_n_n.contr.Idx) : (dot_S1024x1024_S1024x1024_S1024x1024_1_1_0_0_n_n.lhsIdx j q 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem mm_rows_r (j : S1024x1024.Idx) (q : dot_S1024x1024_S1024x1024_S1024x1024_1_1_0_0_n_n.contr.Idx) : (dot_S1024x1024_S1024x1024_S1024x1024_1_1_0_0_n_n.rhsIdx j q 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- Rows against rows: A[s,·]·B[e,·], both contracted along their second axis. -/
theorem mm_rows (A : FVec Ideal S1024x1024 .bf16) (B : FVec Ideal S1024x1024 .bf16) (s e : Fin 1024) :
    matmul dot_S1024x1024_S1024x1024_S1024x1024_1_1_0_0_n_n none A B (constant (F := Ideal) S1024x1024 .f32 0x00000000#32) (ix2 s e)
      = ∑ k : Fin 1024, A (ix2 s k) * B (ix2 e k) := by
  refine (Ideal.matmul_constant_zero_apply _ none A B _).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 s e) ((contrEquiv1 dot_S1024x1024_S1024x1024_S1024x1024_1_1_0_0_n_n 1024 rfl rfl).symm k) = ix2 s k := funext fun a => Fin.ext (by
    match a with
    | ⟨0, _⟩ => exact mm_rows_l _ _
    | ⟨1, _⟩ => exact (dot_S1024x1024_S1024x1024_S1024x1024_1_1_0_0_n_n.lhsIdx_val_of_single rfl _ _).trans hk)
  have er : dot_S1024x1024_S1024x1024_S1024x1024_1_1_0_0_n_n.rhsIdx (ix2 s e) ((contrEquiv1 dot_S1024x1024_S1024x1024_S1024x1024_1_1_0_0_n_n 1024 rfl rfl).symm k) = ix2 e k := funext fun a => Fin.ext (by
    match a with
    | ⟨0, _⟩ => exact mm_rows_r _ _
    | ⟨1, _⟩ => exact (dot_S1024x1024_S1024x1024_S1024x1024_1_1_0_0_n_n.rhsIdx_val_of_single rfl _ _).trans hk)
  rw [el, er]

theorem mm_cols_l (j : S1024x1024.Idx) (q : dot_S1024x1024_S1024x1024_S1024x1024_0_0_1_1_n_n.contr.Idx) : (dot_S1024x1024_S1024x1024_S1024x1024_0_0_1_1_n_n.lhsIdx j q 1).val = (j 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem mm_cols_r (j : S1024x1024.Idx) (q : dot_S1024x1024_S1024x1024_S1024x1024_0_0_1_1_n_n.contr.Idx) : (dot_S1024x1024_S1024x1024_S1024x1024_0_0_1_1_n_n.rhsIdx j q 1).val = (j 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl
/-- Columns against columns: ∑ s, A[s,e]·B[s,f], both contracted along their first axis. -/
theorem mm_cols (A : FVec Ideal S1024x1024 .bf16) (B : FVec Ideal S1024x1024 .bf16) (e f : Fin 1024) :
    matmul dot_S1024x1024_S1024x1024_S1024x1024_0_0_1_1_n_n none A B (constant (F := Ideal) S1024x1024 .f32 0x00000000#32) (ix2 e f)
      = ∑ k : Fin 1024, A (ix2 k e) * B (ix2 k f) := by
  refine (Ideal.matmul_constant_zero_apply _ none A B _).trans ?_
  rw [← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 e f) ((contrEquiv1 dot_S1024x1024_S1024x1024_S1024x1024_0_0_1_1_n_n 1024 rfl rfl).symm k) = ix2 k e := funext fun a => Fin.ext (by
    match a with
    | ⟨0, _⟩ => exact (dot_S1024x1024_S1024x1024_S1024x1024_0_0_1_1_n_n.lhsIdx_val_of_single rfl _ _).trans hk
    | ⟨1, _⟩ => exact mm_cols_l _ _)
  have er : dot_S1024x1024_S1024x1024_S1024x1024_0_0_1_1_n_n.rhsIdx (ix2 e f) ((contrEquiv1 dot_S1024x1024_S1024x1024_S1024x1024_0_0_1_1_n_n 1024 rfl rfl).symm k) = ix2 k f := funext fun a => Fin.ext (by
    match a with
    | ⟨0, _⟩ => exact (dot_S1024x1024_S1024x1024_S1024x1024_0_0_1_1_n_n.rhsIdx_val_of_single rfl _ _).trans hk
    | ⟨1, _⟩ => exact mm_cols_r _ _)
  rw [el, er]

theorem mm_rows512_l (j : S512x1024.Idx) (q : dot_S512x1024_S1024x1024_S512x1024_1_1_0_0_n_n.contr.Idx) : (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem mm_rows512_r (j : S512x1024.Idx) (q : dot_S512x1024_S1024x1024_S512x1024_1_1_0_0_n_n.contr.Idx) : (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- Rows of a 512-row tile against rows of a square matrix. -/
theorem mm_rows512 (A : FVec Ideal S512x1024 .bf16) (B : FVec Ideal S1024x1024 .bf16) (r : Fin 512) (e : Fin 1024) :
    matmul dot_S512x1024_S1024x1024_S512x1024_1_1_0_0_n_n none A B (constant (F := Ideal) S512x1024 .f32 0x00000000#32) (ix2 r e)
      = ∑ k : Fin 1024, A (ix2 r k) * B (ix2 e k) := by
  refine (Ideal.matmul_constant_zero_apply _ none A B _).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r e) ((contrEquiv1 dot_S512x1024_S1024x1024_S512x1024_1_1_0_0_n_n 1024 rfl rfl).symm k) = ix2 r k := funext fun a => Fin.ext (by
    match a with
    | ⟨0, _⟩ => exact mm_rows512_l _ _
    | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r e) ((contrEquiv1 dot_S512x1024_S1024x1024_S512x1024_1_1_0_0_n_n 1024 rfl rfl).symm k) = ix2 e k := funext fun a => Fin.ext (by
    match a with
    | ⟨0, _⟩ => exact mm_rows512_r _ _
    | ⟨1, _⟩ => exact (dot_S512x1024_S1024x1024_S512x1024_1_1_0_0_n_n.rhsIdx_val_of_single rfl _ _).trans hk)
  rw [el, er]

theorem mm_plain512_l (j : S512x1024.Idx) (q : dot_S512x1024_S1024x1024_S512x1024_1_0_0_1_n_n.contr.Idx) : (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem mm_plain512_r (j : S512x1024.Idx) (q : dot_S512x1024_S1024x1024_S512x1024_1_0_0_1_n_n.contr.Idx) : (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl
/-- The ordinary product of a 512-row tile with a square matrix. -/
theorem mm_plain512 (A : FVec Ideal S512x1024 .bf16) (B : FVec Ideal S1024x1024 .bf16) (r : Fin 512) (f : Fin 1024) :
    matmul dot_S512x1024_S1024x1024_S512x1024_1_0_0_1_n_n none A B (constant (F := Ideal) S512x1024 .f32 0x00000000#32) (ix2 r f)
      = ∑ k : Fin 1024, A (ix2 r k) * B (ix2 k f) := by
  refine (Ideal.matmul_constant_zero_apply _ none A B _).trans ?_
  rw [← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r f) ((contrEquiv1 dot_S512x1024_S1024x1024_S512x1024_1_0_0_1_n_n 1024 rfl rfl).symm k) = ix2 r k := funext fun a => Fin.ext (by
    match a with
    | ⟨0, _⟩ => exact mm_plain512_l _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r f) ((contrEquiv1 dot_S512x1024_S1024x1024_S512x1024_1_0_0_1_n_n 1024 rfl rfl).symm k) = ix2 k f := funext fun a => Fin.ext (by
    match a with
    | ⟨0, _⟩ => exact (dot_S512x1024_S1024x1024_S512x1024_1_0_0_1_n_n.rhsIdx_val_of_single rfl _ _).trans hk
    | ⟨1, _⟩ => exact mm_plain512_r _ _)
  rw [el, er]

/-! ## The payloads -/

/-- The zero fill is zero everywhere. -/
theorem pay1_apply (j : S1024x1024.Idx) : k0_pay1 (F := Ideal) j = 0 := by
  unfold k0_pay1
  rw [shapeCast_self]
  exact Ideal.ofBits_zero_f32

/-- The accumulator's update at (e, f). -/
theorem pay2_apply (x0 : Vec Ideal S1x1024x1024 .f32) (x1 x2 : Vec Ideal S1024x1024 .bf16) (xs : Vec Ideal S1024x1024 .f32) (e f : Fin 1024) :
    k0_pay2 x0 x1 x2 xs (ix2 e f)
      = xs (ix2 e f) + ∑ s : Fin 1024, (∑ d : Fin 1024, x0 (ix3 (0 : Fin 1) s d) * x1 (ix2 e d)) * (∑ d : Fin 1024, x0 (ix3 (0 : Fin 1) s d) * x2 (ix2 f d)) := by
  unfold k0_pay2
  simp only [shapeCast_self, addf_apply, mm_cols, truncf_apply, mm_rows, shapeCast_1ab_ab_apply]

/-- The write-out recasts the accumulator under a leading unit axis. -/
theorem pay3_apply (v : Vec Ideal S1024x1024 .f32) (u : Fin 1) (e f : Fin 1024) : k0_pay3 v (ix3 u e f) = v (ix2 e f) := by
  unfold k0_pay3
  rw [shapeCast_ab_1ab_apply]
  rfl

/-- The output kernel's result at row r, column g of its tile. -/
theorem out_apply (x0 : Vec Ideal S1x512x1024 .f32) (x1 : Vec Ideal S1024x1024 .bf16) (x4 : Vec Ideal S1x1024x1024 .bf16)
    (x2 : Vec Ideal S1024x1024 .bf16) (x3 : Vec Ideal S1024 .f32) (u : Fin 1) (r : Fin 512) (g : Fin 1024) :
    k1_pay1 x0 x1 x4 x2 x3 (ix3 u r g)
      = (∑ f : Fin 1024, (∑ e : Fin 1024, (∑ d : Fin 1024, x0 (ix3 (0 : Fin 1) r d) * x1 (ix2 e d)) * x4 (ix3 (0 : Fin 1) e f)) * x2 (ix2 g f))
        + x3 (ix1 g) + x0 (ix3 (0 : Fin 1) r g) := by
  unfold k1_pay1
  rw [shapeCast_ab_1ab_apply]
  simp only [shapeCast_self, addf_apply, mm_rows512, mm_plain512, truncf_apply, shapeCast_1ab_ab_apply,
    broadcastTo_1b_ab_apply, shapeCast_a_1a_apply]

end Cert.KernelIdeal.Pay

end
-- ==== Proof.Spec.lean ====
/-
  The linear-attention block as ONE function of its six argument arrays, over the extended reals.

  With x[b,s,d] the input and Wq, Wk, Wv, Wp square weight matrices stored (output row, input column):
    q[b,s,e] = ∑ d, x[b,s,d] · Wq[e,d]        (likewise k with Wk, v with Wv)
    kv[b,e,f] = ∑ s, k[b,s,e] · v[b,s,f]       (the whole sequence axis, 4096 terms)
    z[b,s,f] = ∑ e, q[b,s,e] · kv[b,e,f]
    out[b,s,g] = (∑ f, z[b,s,f] · Wp[g,f]) + bp[g] + x[b,s,g]
  Every index is built from its coordinates, typed by the literal extents.
-/
import Idealize.ShloMosaic.PureOps.Ideal
import Idealize.ShloMosaic.Lib.ValueIdx

noncomputable section

open scoped BigOperators

namespace Cert.LinAttn

open Idealize.ShloMosaic Idealize.ShloMosaic.ValueIdx

/-- The input array, the square weight matrices and the bias as functions of an index. -/
abbrev Arr3 : Type := (⟨3, ![8, 4096, 1024]⟩ : Shape).Idx → EReal
abbrev Mat : Type := (⟨2, ![1024, 1024]⟩ : Shape).Idx → EReal
abbrev Vec1 : Type := (⟨1, ![1024]⟩ : Shape).Idx → EReal
/-- One matrix per batch entry (the summed outer products). -/
abbrev Mats : Type := (⟨3, ![8, 1024, 1024]⟩ : Shape).Idx → EReal

/-- A linear projection of row (b, s) of the input: ∑ d, x[b,s,d] · W[e,d]. -/
def proj (x : Arr3) (W : Mat) (b : Fin 8) (s : Fin 4096) (e : Fin 1024) : EReal :=
  ∑ d : Fin 1024, x (ix3 b s d) * W (ix2 e d)

/-- The key-value matrix of batch entry b: ∑ s, k[b,s,e] · v[b,s,f] over the whole sequence. -/
def kvAt (x : Arr3) (Wk Wv : Mat) (b : Fin 8) (e f : Fin 1024) : EReal :=
  ∑ s : Fin 4096, proj x Wk b s e * proj x Wv b s f

/-- The same matrices as one array. -/
def kvArr (x : Arr3) (Wk Wv : Mat) : Mats := fun j => kvAt x Wk Wv (j 0) (j 1) (j 2)

/-- The attention output before the last projection, from any per-batch matrices `kv`: ∑ e, q[b,s,e] · kv[b,e,f]. -/
def zAt (x : Arr3) (Wq : Mat) (kv : Mats) (b : Fin 8) (s : Fin 4096) (f : Fin 1024) : EReal :=
  ∑ e : Fin 1024, proj x Wq b s e * kv (ix3 b e f)

/-- The block's result at (b, s, g) from any per-batch matrices `kv`: the projected attention output, plus the bias,
    plus the residual — associated in that order. -/
def outOf (x : Arr3) (Wq Wp : Mat) (bp : Vec1) (kv : Mats) (b : Fin 8) (s : Fin 4096) (g : Fin 1024) : EReal :=
  (∑ f : Fin 1024, zAt x Wq kv b s f * Wp (ix2 g f)) + bp (ix1 g) + x (ix3 b s g)

/-- The block's result at (b, s, g). -/
def outAt (x : Arr3) (Wq Wk Wv Wp : Mat) (bp : Vec1) (b : Fin 8) (s : Fin 4096) (g : Fin 1024) : EReal :=
  outOf x Wq Wp bp (kvArr x Wk Wv) b s g

/-- The block's result as one array. -/
def outArr (x : Arr3) (Wq Wk Wv Wp : Mat) (bp : Vec1) : Arr3 := fun j => outAt x Wq Wk Wv Wp bp (j 0) (j 1) (j 2)

theorem kvArr_ix3 (x : Arr3) (Wk Wv : Mat) (b : Fin 8) (e f : Fin 1024) : kvArr x Wk Wv (ix3 b e f) = kvAt x Wk Wv b e f := rfl

theorem outArr_ix3 (x : Arr3) (Wq Wk Wv Wp : Mat) (bp : Vec1) (b : Fin 8) (s : Fin 4096) (g : Fin 1024) :
    outArr x Wq Wk Wv Wp bp (ix3 b s g) = outAt x Wq Wk Wv Wp bp b s g := rfl

end Cert.LinAttn

end
-- ==== Proof.LibChunkSum.lean ====
/-
  Sums taken in consecutive chunks, over any commutative additive monoid (the extended reals among them).

  * `sum_fin_mul_eq_chunks`: a sum over `Fin (m * n)` is the sum over the `m` chunks of the sum over the `n`
    positions inside a chunk, position `c` of chunk `j` being the index `c + n * j`.
  * `fold_add_eq_sum`: a sequence that starts at `init` and at each step adds the next term ends, after `m` steps,
    at `init` plus the sum of the `m` terms.
  * `fold_chunks_eq_sum`: the two together — accumulating chunk sums one chunk at a time gives `init` plus the whole sum.
  * `fold_chunks_eq_sum_of_eq`: the same over `Fin N` with `m * n = N`, the chunk positions written `c + n * k`.
-/
import Idealize.ShloMosaic.PureOps.Ideal.Laws

namespace Cert.Lib.ChunkSum

open Finset

variable {M : Type*} [AddCommMonoid M]

/-- A sum over `Fin (m * n)` taken chunk by chunk: `m` chunks of `n` consecutive indices. -/
theorem sum_fin_mul_eq_chunks (m n : ℕ) (f : Fin (m * n) → M) :
    ∑ k : Fin (m * n), f k = ∑ j : Fin m, ∑ c : Fin n, f (finProdFinEquiv (j, c)) := by
  rw [← Fintype.sum_prod_type']
  exact (Fintype.sum_equiv finProdFinEquiv _ _ (fun _ => rfl)).symm

/-- The index of position `c` in chunk `j`. -/
theorem finProdFinEquiv_val (m n : ℕ) (j : Fin m) (c : Fin n) :
    (finProdFinEquiv (j, c) : Fin (m * n)).val = c.val + n * j.val := rfl

/-- A running total that adds one term per step ends at the initial value plus the sum of the terms. -/
theorem fold_add_eq_sum (m : ℕ) (s : ℕ → M) (g : Fin m → M) (init : M)
    (h0 : s 0 = init) (hs : ∀ k : Fin m, s (k.val + 1) = s k.val + g k) :
    s m = init + ∑ j : Fin m, g j := by
  induction m with
  | zero => simp [h0]
  | succ m ih =>
    have h := ih (fun j => g j.castSucc) (fun k => hs k.castSucc)
    rw [Fin.sum_univ_castSucc, ← add_assoc, ← h]
    exact hs (Fin.last m)

/-- Accumulating the chunk sums of `f` one chunk at a time gives the initial value plus the whole sum of `f`. -/
theorem fold_chunks_eq_sum (m n : ℕ) (f : Fin (m * n) → M) (s : ℕ → M) (init : M)
    (h0 : s 0 = init)
    (hs : ∀ k : Fin m, s (k.val + 1) = s k.val + ∑ c : Fin n, f (finProdFinEquiv (k, c))) :
    s m = init + ∑ k : Fin (m * n), f k := by
  rw [sum_fin_mul_eq_chunks]
  exact fold_add_eq_sum m s _ init h0 hs

/-- Position `c` of chunk `k` lies inside the whole range. -/
theorem chunk_index_lt {m n N : ℕ} (hN : m * n = N) (k : Fin m) (c : Fin n) : c.val + n * k.val < N := by
  subst hN; exact (finProdFinEquiv (k, c)).isLt

/-- The same over `Fin N`, `m * n = N`: a running total that adds, at step `k`, the sum of `g` over the positions
    `c + n * k` of chunk `k`, ends at the initial value plus the sum of `g` over all of `Fin N`. -/
theorem fold_chunks_eq_sum_of_eq (m n N : ℕ) (hN : m * n = N) (g : Fin N → M) (s : ℕ → M) (init : M)
    (h0 : s 0 = init)
    (hs : ∀ k : Fin m, s (k.val + 1) = s k.val + ∑ c : Fin n, g ⟨c.val + n * k.val, chunk_index_lt hN k c⟩) :
    s m = init + ∑ j : Fin N, g j := by
  subst hN
  exact fold_chunks_eq_sum m n g s init h0 hs

end Cert.Lib.ChunkSum
-- ==== Proof.Value0.lean ====
/-
  What the accumulating region leaves in its output array: batch entry b's key-value matrix,
  kv[b,e,f] = ∑ s, k[b,s,e] · v[b,s,f] over the whole sequence, the sum taken in four tiles of 1024 rows.

  Point t of the grid is batch entry t / 4, tile t % 4. The input window's block there is rows
  1024·(t % 4) … 1024·(t % 4) + 1023 of entry t / 4; the two weight windows are the whole matrices. After tile j the
  accumulator holds the partial sum over tiles 0 … j; at the last tile it is written to block t / 4 of the output, and these
  blocks tile the output array.
-/
import proofs.«150717_j88364657148296_2_alg».proof.Proof.Ideal.Region0
import proofs.«150717_j88364657148296_2_alg».proof.Proof.PayIdeal
import proofs.«150717_j88364657148296_2_alg».proof.Proof.Spec
import proofs.«150717_j88364657148296_2_alg».proof.Proof.LibChunkSum

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pay Cert.LinAttn

variable (V : (c : Dev nD) → (b : Ref sig .tc) → Buf (Elt Ideal) ((c : Thread nD τ).loc b))

/-- The printed index maps of the region's windows, decided over the grid. -/
theorem idx_facts0 : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val / 4 ∧ win0_3.index t (1 : Fin 3) = 0 ∧ win0_3.index t (2 : Fin 3) = 0 :=
  (by decide +kernel : ∀ t : Fin grid0.N, _)

/-! ## The blocks, read at coordinates -/

/-- The input block at point t is rows 1024·(t % 4) + s of batch entry t / 4. -/
theorem blk0_x (c : Dev nD) (t : Fin cfg0.N) (b : Fin 8) (hb : b.val = t.val / 4) (u : Fin 1) (s d : Fin 1024)
    (s' : Fin 4096) (hs : s'.val = s.val + 1024 * (t.val % 4)) :
    iblk0 V c 0 t (ix3 u s d) = V c main_arg0 (ix3 b s' d) := by
  obtain ⟨e0, e1, e2, -⟩ := idx_facts0 t
  show V c main_arg0 (((cfg0.win 0).blk t).view.emb (ix3 u s d)) = _
  refine congrArg (V c main_arg0) (funext fun a => Fin.ext ?_)
  match a with
  | ⟨0, _⟩ => show win0_0.index t (0 : Fin 3) * 1 + 1 * u.val = b.val; omega
  | ⟨1, _⟩ => show win0_0.index t (1 : Fin 3) * 1024 + 1 * s.val = s'.val; omega
  | ⟨2, _⟩ => show win0_0.index t (2 : Fin 3) * 1024 + 1 * d.val = d.val; omega

/-- The key weights' block is the whole matrix. -/
theorem blk0_wk (c : Dev nD) (t : Fin cfg0.N) (e d : Fin 1024) : iblk0 V c 1 t (ix2 e d) = V c main_v1 (ix2 e d) := by
  obtain ⟨-, -, -, e0, e1, -⟩ := idx_facts0 t
  show V c main_v1 (((cfg0.win 1).blk t).view.emb (ix2 e d)) = _
  refine congrArg (V c main_v1) (funext fun a => Fin.ext ?_)
  match a with
  | ⟨0, _⟩ => show win0_1.index t (0 : Fin 2) * 1024 + 1 * e.val = e.val; omega
  | ⟨1, _⟩ => show win0_1.index t (1 : Fin 2) * 1024 + 1 * d.val = d.val; omega

/-- The value weights' block is the whole matrix. -/
theorem blk0_wv (c : Dev nD) (t : Fin cfg0.N) (e d : Fin 1024) : iblk0 V c 2 t (ix2 e d) = V c main_v2 (ix2 e d) := by
  obtain ⟨-, -, -, -, -, e0, e1, -⟩ := idx_facts0 t
  show V c main_v2 (((cfg0.win 2).blk t).view.emb (ix2 e d)) = _
  refine congrArg (V c main_v2) (funext fun a => Fin.ext ?_)
  match a with
  | ⟨0, _⟩ => show win0_2.index t (0 : Fin 2) * 1024 + 1 * e.val = e.val; omega
  | ⟨1, _⟩ => show win0_2.index t (1 : Fin 2) * 1024 + 1 * d.val = d.val; omega

/-! ## One tile's update -/

/-- The summand of the key-value matrix at sequence position s. -/
def kvTerm (c : Dev nD) (b : Fin 8) (e f : Fin 1024) (s : Fin 4096) : EReal :=
  proj (V c main_arg0) (V c main_v1) b s e * proj (V c main_arg0) (V c main_v2) b s f

/-- The update at point t, read at (e, f): the accumulator's entry plus the sum of the 1024 summands of tile t % 4 of
    batch entry t / 4. -/
theorem step0 (c : Dev nD) (t : Fin cfg0.N) (b : Fin 8) (hb : b.val = t.val / 4) (j : Fin 4) (hj : j.val = t.val % 4)
    (xs : Vec Ideal S1024x1024 .f32) (e f : Fin 1024) :
    k0_pay2 (iblk0 V c 0 t) (iblk0 V c 1 t) (iblk0 V c 2 t) xs (ix2 e f)
      = xs (ix2 e f) + ∑ r : Fin 1024, kvTerm V c b e f ⟨r.val + 1024 * j.val, Cert.Lib.ChunkSum.chunk_index_lt (by norm_num : 4 * 1024 = 4096) j r⟩ := by
  rw [pay2_apply]
  refine congrArg (xs (ix2 e f) + ·) (Finset.sum_congr rfl fun r _ => ?_)
  unfold kvTerm proj
  refine congrArg₂ (· * ·) (Finset.sum_congr rfl fun d _ => ?_) (Finset.sum_congr rfl fun d _ => ?_)
  · rw [blk0_x V c t b hb 0 r d ⟨r.val + 1024 * j.val, _⟩ (by show r.val + 1024 * j.val = _; omega), blk0_wk]
  · rw [blk0_x V c t b hb 0 r d ⟨r.val + 1024 * j.val, _⟩ (by show r.val + 1024 * j.val = _; omega), blk0_wv]

/-! ## The accumulation over the four tiles of a batch entry -/

/-- The accumulator after linear position n, totally defined. -/
def accN (c : Dev nD) (n : ℕ) : Vec Ideal S1024x1024 .f32 :=
  if h : n < cfg0.N then acc0 V c n h else k0_pay1 (F := Ideal)

theorem accN_of_lt (c : Dev nD) (n : ℕ) (h : n < cfg0.N) : accN V c n = acc0 V c n h := dif_pos h

/-- After the last tile of batch entry b the accumulator holds the whole sum. -/
theorem acc_total (c : Dev nD) (b : Fin 8) (e f : Fin 1024) :
    accN V c (4 * b.val + 3) (ix2 e f) = kvAt (V c main_arg0) (V c main_v1) (V c main_v2) b e f := by
  have hN : cfg0.N = 32 := N_0
  have key := Cert.Lib.ChunkSum.fold_chunks_eq_sum_of_eq 4 1024 4096 (by norm_num) (kvTerm V c b e f)
    (fun j => if j = 0 then (0 : EReal) else accN V c (4 * b.val + (j - 1)) (ix2 e f)) 0 (if_pos rfl) (fun k => by
      obtain ⟨k, hk⟩ := k
      have hlt : 4 * b.val + k < cfg0.N := by rw [hN]; have := b.isLt; omega
      show (if k + 1 = 0 then (0 : EReal) else accN V c (4 * b.val + (k + 1 - 1)) (ix2 e f)) = _
      rw [if_neg (Nat.succ_ne_zero k), Nat.add_sub_cancel, accN_of_lt V c _ hlt]
      by_cases hk0 : k = 0
      · subst hk0
        rw [if_pos rfl, acc0_first V c ⟨4 * b.val + 0, hlt⟩ (by show (4 * b.val + 0) % 4 = 0; omega),
          step0 V c ⟨4 * b.val + 0, hlt⟩ b (by show b.val = (4 * b.val + 0) / 4; omega) ⟨0, hk⟩ (by show 0 = (4 * b.val + 0) % 4; omega),
          pay1_apply]
      · rw [if_neg hk0, acc0_next V c ⟨4 * b.val + k, hlt⟩ (by show ¬(4 * b.val + k) % 4 = 0; omega),
          step0 V c ⟨4 * b.val + k, hlt⟩ b (by show b.val = (4 * b.val + k) / 4; omega) ⟨k, hk⟩ (by show k = (4 * b.val + k) % 4; omega)]
        have hlt' : 4 * b.val + (k - 1) < cfg0.N := by omega
        rw [accN_of_lt V c _ hlt']
        have hcongr : ∀ (n n' : ℕ) (h : n < cfg0.N) (h' : n' < cfg0.N), n = n' → acc0 V c n h = acc0 V c n' h' := by
          intro n n' h h' hn; subst hn; rfl
        rw [hcongr (4 * b.val + k - 1) (4 * b.val + (k - 1)) _ hlt' (by omega)])
  have h4 : (if (4 : ℕ) = 0 then (0 : EReal) else accN V c (4 * b.val + (4 - 1)) (ix2 e f)) = accN V c (4 * b.val + 3) (ix2 e f) := if_neg (by norm_num)
  rw [← h4]
  refine key.trans ?_
  rw [zero_add]
  rfl

/-! ## The output array -/

/-- An index of the output array is in point t's block iff each coordinate is in the block's range on its axis. -/
theorem mem_blk0_3 (t : Fin cfg0.N) (i : S8x1024x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v4).slice (win0_3.rect t)).set ↔ _
  rw [View.set_slice_whole, Rect.mem_set_unit]
  exact Iff.rfl

/-- WHAT A LAST-TILE POINT WRITES BACK is its block of the key-value matrices. -/
theorem flushed0_eq (c : Dev nD) (t : Fin cfg0.N) (hf : (cfg0.win 3).flush t = true) :
    (dat0 V c).flushed 3 t = ((cfg0.win 3).blk t).view.read (Elt Ideal) (kvArr (V c main_arg0) (V c main_v1) (V c main_v2)) := by
  have h3 : t.val % 4 = 3 := (flush0_3 t).mp hf
  have hN : cfg0.N = 32 := N_0
  have htl : t.val < 32 := lt_of_lt_of_eq t.isLt hN
  obtain ⟨-, -, -, -, -, -, -, e0, e1, e2⟩ := idx_facts0 t
  show (cfg0.win 3).cut (grid0.coords t) ((dat0 V c).after 3 t) = _
  rw [after0_3]
  funext y
  obtain ⟨u, e, f, rfl⟩ : ∃ (u : Fin 1) (e f : Fin 1024), y = ix3 u e f := ⟨y 0, y 1, y 2, eq_ix3 y⟩
  show k0_pay3 (acc0 V c t.val t.isLt) (ix3 u e f) = kvArr (V c main_arg0) (V c main_v1) (V c main_v2) (((cfg0.win 3).blk t).view.emb (ix3 u e f))
  have hemb : ((cfg0.win 3).blk t).view.emb (ix3 u e f) = ix3 (⟨t.val / 4, by omega⟩ : Fin 8) e f := by
    funext a; apply Fin.ext
    match a with
    | ⟨0, _⟩ => show win0_3.index t (0 : Fin 3) * 1 + 1 * u.val = t.val / 4; omega
    | ⟨1, _⟩ => show win0_3.index t (1 : Fin 3) * 1024 + 1 * e.val = e.val; omega
    | ⟨2, _⟩ => show win0_3.index t (2 : Fin 3) * 1024 + 1 * f.val = f.val; omega
  rw [hemb, kvArr_ix3, pay3_apply, ← acc_total V c ⟨t.val / 4, by omega⟩ e f]
  have hlt : 4 * (t.val / 4) + 3 < cfg0.N := by omega
  rw [accN_of_lt V c _ hlt]
  have hcongr : ∀ (n n' : ℕ) (h : n < cfg0.N) (h' : n' < cfg0.N), n = n' → acc0 V c n h = acc0 V c n' h' := by
    intro n n' h h' hn; subst hn; rfl
  rw [hcongr t.val (4 * (t.val / 4) + 3) t.isLt hlt (by omega)]

/-- THE OUTPUT ARRAY after the region: the key-value matrix of every batch entry. -/
theorem final0 (c : Dev nD) :
    (dat0 V c).arrAt 3 cfg0.N = kvArr (V c main_arg0) (V c main_v1) (V c main_v2) := by
  have hN : cfg0.N = 32 := N_0
  refine (dat0 V c).arrAt_eq_of_cover 3 _ (fun t hf => flushed0_eq V c t hf) (fun i => ?_)
  have hi0 : (i 0).val < 8 := (i 0).isLt
  have hi1 : (i 1).val < 1024 := (i 1).isLt
  have hi2 : (i 2).val < 1024 := (i 2).isLt
  have hlt : 4 * (i 0).val + 3 < cfg0.N := by omega
  refine ⟨⟨4 * (i 0).val + 3, hlt⟩, (flush0_3 _).mpr (by show (4 * (i 0).val + 3) % 4 = 3; omega), ?_⟩
  obtain ⟨-, -, -, -, -, -, -, e0, e1, e2⟩ := idx_facts0 ⟨4 * (i 0).val + 3, hlt⟩
  have e0' : win0_3.index ⟨4 * (i 0).val + 3, hlt⟩ (0 : Fin 3) = (4 * (i 0).val + 3) / 4 := e0
  rw [mem_blk0_3]
  intro a
  match a with
  | ⟨0, _⟩ => show win0_3.index ⟨4 * (i 0).val + 3, hlt⟩ (0 : Fin 3) * 1 ≤ (i 0).val ∧ (i 0).val < win0_3.index ⟨4 * (i 0).val + 3, hlt⟩ (0 : Fin 3) * 1 + 1; omega
  | ⟨1, _⟩ => show win0_3.index ⟨4 * (i 0).val + 3, hlt⟩ (1 : Fin 3) * 1024 ≤ (i 1).val ∧ (i 1).val < win0_3.index ⟨4 * (i 0).val + 3, hlt⟩ (1 : Fin 3) * 1024 + 1024; omega
  | ⟨2, _⟩ => show win0_3.index ⟨4 * (i 0).val + 3, hlt⟩ (2 : Fin 3) * 1024 ≤ (i 2).val ∧ (i 2).val < win0_3.index ⟨4 * (i 0).val + 3, hlt⟩ (2 : Fin 3) * 1024 + 1024; omega

end Cert.KernelIdeal.Hand

end
-- ==== Proof.Value1.lean ====
/-
  What the output region leaves in its output array: at (b, s, g) the projected attention output plus the bias plus the
  residual, from whatever per-batch matrices the region finds in its fifth operand.

  Point t of the grid is batch entry t / 8, tile t % 8 of 512 rows. The input window's block there is rows
  512·(t % 8) … of entry t / 8; the per-batch matrix window's block is matrix t / 8; the weight and bias windows are whole.
  Every point writes its output block back, and the blocks tile the output array.
-/
import proofs.«150717_j88364657148296_2_alg».proof.Proof.Ideal.Region1
import proofs.«150717_j88364657148296_2_alg».proof.Proof.PayIdeal
import proofs.«150717_j88364657148296_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Pay Cert.LinAttn

variable (V : (c : Dev nD) → (b : Ref sig .tc) → Buf (Elt Ideal) ((c : Thread nD τ).loc b))

/-- The printed index maps of the region's windows, decided over the grid. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = t.val % 8 ∧ win1_5.index t (2 : Fin 3) = 0 :=
  (by decide +kernel : ∀ t : Fin grid1.N, _)

/-! ## The blocks, read at coordinates -/

/-- The input block at point t is rows 512·(t % 8) + r of batch entry t / 8. -/
theorem blk1_x (c : Dev nD) (t : Fin cfg1.N) (b : Fin 8) (hb : b.val = t.val / 8) (u : Fin 1) (r : Fin 512) (d : Fin 1024)
    (s' : Fin 4096) (hs : s'.val = 512 * (t.val % 8) + r.val) :
    iblk1 V c 0 t (ix3 u r d) = V c main_arg0 (ix3 b s' d) := by
  obtain ⟨e0, e1, e2, -⟩ := idx_facts1 t
  show V c main_arg0 (((cfg1.win 0).blk t).view.emb (ix3 u r d)) = _
  refine congrArg (V c main_arg0) (funext fun a => Fin.ext ?_)
  match a with
  | ⟨0, _⟩ => show win1_0.index t (0 : Fin 3) * 1 + 1 * u.val = b.val; omega
  | ⟨1, _⟩ => show win1_0.index t (1 : Fin 3) * 512 + 1 * r.val = s'.val; omega
  | ⟨2, _⟩ => show win1_0.index t (2 : Fin 3) * 1024 + 1 * d.val = d.val; omega

/-- The query weights' block is the whole matrix. -/
theorem blk1_wq (c : Dev nD) (t : Fin cfg1.N) (e d : Fin 1024) : iblk1 V c 1 t (ix2 e d) = V c main_v0 (ix2 e d) := by
  obtain ⟨-, -, -, e0, e1, -⟩ := idx_facts1 t
  show V c main_v0 (((cfg1.win 1).blk t).view.emb (ix2 e d)) = _
  refine congrArg (V c main_v0) (funext fun a => Fin.ext ?_)
  match a with
  | ⟨0, _⟩ => show win1_1.index t (0 : Fin 2) * 1024 + 1 * e.val = e.val; omega
  | ⟨1, _⟩ => show win1_1.index t (1 : Fin 2) * 1024 + 1 * d.val = d.val; omega

/-- The output weights' block is the whole matrix. -/
theorem blk1_wp (c : Dev nD) (t : Fin cfg1.N) (g f : Fin 1024) : iblk1 V c 2 t (ix2 g f) = V c main_v3 (ix2 g f) := by
  obtain ⟨-, -, -, -, -, e0, e1, -⟩ := idx_facts1 t
  show V c main_v3 (((cfg1.win 2).blk t).view.emb (ix2 g f)) = _
  refine congrArg (V c main_v3) (funext fun a => Fin.ext ?_)
  match a with
  | ⟨0, _⟩ => show win1_2.index t (0 : Fin 2) * 1024 + 1 * g.val = g.val; omega
  | ⟨1, _⟩ => show win1_2.index t (1 : Fin 2) * 1024 + 1 * f.val = f.val; omega

/-- The bias window's block is the whole vector. -/
theorem blk1_bp (c : Dev nD) (t : Fin cfg1.N) (g : Fin 1024) : iblk1 V c 3 t (ix1 g) = V c main_arg5 (ix1 g) := by
  obtain ⟨-, -, -, -, -, -, -, e0, -⟩ := idx_facts1 t
  show V c main_arg5 (((cfg1.win 3).blk t).view.emb (ix1 g)) = _
  refine congrArg (V c main_arg5) (funext fun a => Fin.ext ?_)
  match a with
  | ⟨0, _⟩ => show win1_3.index t (0 : Fin 1) * 1024 + 1 * g.val = g.val; omega

/-- The per-batch matrix window's block at point t is matrix t / 8. -/
theorem blk1_kv (c : Dev nD) (t : Fin cfg1.N) (b : Fin 8) (hb : b.val = t.val / 8) (u : Fin 1) (e f : Fin 1024) :
    iblk1 V c 4 t (ix3 u e f) = V c main_v4 (ix3 b e f) := by
  obtain ⟨-, -, -, -, -, -, -, -, e0, e1, e2, -⟩ := idx_facts1 t
  show V c main_v4 (((cfg1.win 4).blk t).view.emb (ix3 u e f)) = _
  refine congrArg (V c main_v4) (funext fun a => Fin.ext ?_)
  match a with
  | ⟨0, _⟩ => show win1_4.index t (0 : Fin 3) * 1 + 1 * u.val = b.val; omega
  | ⟨1, _⟩ => show win1_4.index t (1 : Fin 3) * 1024 + 1 * e.val = e.val; omega
  | ⟨2, _⟩ => show win1_4.index t (2 : Fin 3) * 1024 + 1 * f.val = f.val; omega

/-! ## The output array -/

/-- The region's result as one array, from the buffers the region finds. -/
def G1 (c : Dev nD) : Arr3 := fun j =>
  outOf (V c main_arg0) (V c main_v0) (V c main_v3) (V c main_arg5) (V c main_v4) (j 0) (j 1) (j 2)

theorem G1_ix3 (c : Dev nD) (b : Fin 8) (s : Fin 4096) (g : Fin 1024) :
    G1 V c (ix3 b s g) = outOf (V c main_arg0) (V c main_v0) (V c main_v3) (V c main_arg5) (V c main_v4) b s g := rfl

theorem mem_blk1_5 (t : Fin cfg1.N) (i : S8x4096x1024.Idx) :
    i ∈ ((cfg1.win 5).blk t).view.set ↔ ∀ a : Fin 3, win1_5.index t a * S1x512x1024.size a ≤ (i a).val ∧ (i a).val < win1_5.index t a * S1x512x1024.size a + S1x512x1024.size a := by
  show i ∈ ((View.whole main_v5).slice (win1_5.rect t)).set ↔ _
  rw [View.set_slice_whole, Rect.mem_set_unit]
  exact Iff.rfl

/-- WHAT POINT t WRITES BACK is its block of the result array. -/
theorem flushed1_eq (c : Dev nD) (t : Fin cfg1.N) :
    (dat1 V c).flushed 5 t = ((cfg1.win 5).blk t).view.read (Elt Ideal) (G1 V c) := by
  have hN : cfg1.N = 64 := N_1
  have htl : t.val < 64 := lt_of_lt_of_eq t.isLt hN
  obtain ⟨-, -, -, -, -, -, -, -, -, -, -, e0, e1, e2⟩ := idx_facts1 t
  show (cfg1.win 5).cut (grid1.coords t) ((dat1 V c).after 5 t) = _
  rw [after1_5]
  unfold out1
  funext y
  obtain ⟨u, r, g, rfl⟩ : ∃ (u : Fin 1) (r : Fin 512) (g : Fin 1024), y = ix3 u r g := ⟨y 0, y 1, y 2, eq_ix3 y⟩
  show k1_pay1 (iblk1 V c 0 t) (iblk1 V c 1 t) (iblk1 V c 4 t) (iblk1 V c 2 t) (iblk1 V c 3 t) (ix3 u r g)
    = G1 V c (((cfg1.win 5).blk t).view.emb (ix3 u r g))
  have hemb : ((cfg1.win 5).blk t).view.emb (ix3 u r g) = ix3 (⟨t.val / 8, by omega⟩ : Fin 8) (⟨512 * (t.val % 8) + r.val, by omega⟩ : Fin 4096) g := by
    funext a; apply Fin.ext
    match a with
    | ⟨0, _⟩ => show win1_5.index t (0 : Fin 3) * 1 + 1 * u.val = t.val / 8; omega
    | ⟨1, _⟩ => show win1_5.index t (1 : Fin 3) * 512 + 1 * r.val = 512 * (t.val % 8) + r.val; omega
    | ⟨2, _⟩ => show win1_5.index t (2 : Fin 3) * 1024 + 1 * g.val = g.val; omega
  rw [hemb, G1_ix3, out_apply]
  unfold outOf zAt proj
  refine congrArg₂ (· + ·) (congrArg₂ (· + ·) (Finset.sum_congr rfl fun f _ => ?_) (blk1_bp V c t g)) (blk1_x V c t _ rfl 0 r g _ rfl)
  refine congrArg₂ (· * ·) (Finset.sum_congr rfl fun e _ => ?_) (blk1_wp V c t g f)
  refine congrArg₂ (· * ·) (Finset.sum_congr rfl fun d _ => ?_) (blk1_kv V c t _ rfl 0 e f)
  rw [blk1_x V c t (⟨t.val / 8, by omega⟩ : Fin 8) rfl 0 r d (⟨512 * (t.val % 8) + r.val, by omega⟩ : Fin 4096) rfl, blk1_wq]

/-- THE OUTPUT ARRAY after the region. -/
theorem final1 (c : Dev nD) : (dat1 V c).arrAt 5 cfg1.N = G1 V c := by
  have hN : cfg1.N = 64 := N_1
  refine (dat1 V c).arrAt_eq_of_cover 5 _ (fun t _ => flushed1_eq V c t) (fun i => ?_)
  have hi0 : (i 0).val < 8 := (i 0).isLt
  have hi1 : (i 1).val < 4096 := (i 1).isLt
  have hi2 : (i 2).val < 1024 := (i 2).isLt
  have hlt : 8 * (i 0).val + (i 1).val / 512 < cfg1.N := by omega
  refine ⟨⟨8 * (i 0).val + (i 1).val / 512, hlt⟩, flush1_5 _, ?_⟩
  obtain ⟨-, -, -, -, -, -, -, -, -, -, -, e0, e1, e2⟩ := idx_facts1 ⟨8 * (i 0).val + (i 1).val / 512, hlt⟩
  have e0' : win1_5.index ⟨8 * (i 0).val + (i 1).val / 512, hlt⟩ (0 : Fin 3) = (8 * (i 0).val + (i 1).val / 512) / 8 := e0
  have e1' : win1_5.index ⟨8 * (i 0).val + (i 1).val / 512, hlt⟩ (1 : Fin 3) = (8 * (i 0).val + (i 1).val / 512) % 8 := e1
  rw [mem_blk1_5]
  intro a
  match a with
  | ⟨0, _⟩ => show win1_5.index ⟨8 * (i 0).val + (i 1).val / 512, hlt⟩ (0 : Fin 3) * 1 ≤ (i 0).val ∧ (i 0).val < win1_5.index ⟨8 * (i 0).val + (i 1).val / 512, hlt⟩ (0 : Fin 3) * 1 + 1; omega
  | ⟨1, _⟩ => show win1_5.index ⟨8 * (i 0).val + (i 1).val / 512, hlt⟩ (1 : Fin 3) * 512 ≤ (i 1).val ∧ (i 1).val < win1_5.index ⟨8 * (i 0).val + (i 1).val / 512, hlt⟩ (1 : Fin 3) * 512 + 512; omega
  | ⟨2, _⟩ => show win1_5.index ⟨8 * (i 0).val + (i 1).val / 512, hlt⟩ (2 : Fin 3) * 1024 ≤ (i 2).val ∧ (i 2).val < win1_5.index ⟨8 * (i 0).val + (i 1).val / 512, hlt⟩ (2 : Fin 3) * 1024 + 1024; omega

end Cert.KernelIdeal.Hand

end
-- ==== Proof.Final.lean ====
/-
  The idealized kernel's result, read off its run: the block's specification of the six argument arrays.

  The four host conversions narrow the weight matrices' float format, which over the extended reals changes nothing. The
  first region finds the input and the key and value weights and leaves the key-value matrices; the second finds the input, the
  query and output weights, the bias and those matrices, and leaves the result. Substituting each region's entry contents
  by what the items before it left gives the specification of the launch contents.
-/
import proofs.«150717_j88364657148296_2_alg».proof.Proof.Ideal.Run
import proofs.«150717_j88364657148296_2_alg».proof.Proof.Value0
import proofs.«150717_j88364657148296_2_alg».proof.Proof.Value1
import proofs.«150717_j88364657148296_2_alg».proof.Proof.Spec
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.LinAttn

variable (m : (ℓ : Loc nD τ sig) → Buf (Elt Ideal) ℓ) (ρ : Dev nD → PrngReg)

/-! ## The host conversions -/

theorem V1_v0 (c : Dev nD) : (V1 m c main_v0 : Mat) = (m ((c : Thread nD τ).loc main_arg1) : Mat) := by
  show (StableHlo.after hostOps0 (W0 m c) (Proc.devRef .tc main_v0) : Mat) = _
  after_results
  rfl
theorem V1_v1 (c : Dev nD) : (V1 m c main_v1 : Mat) = (m ((c : Thread nD τ).loc main_arg2) : Mat) := by
  show (StableHlo.after hostOps0 (W0 m c) (Proc.devRef .tc main_v1) : Mat) = _
  after_results
  rfl
theorem V1_v2 (c : Dev nD) : (V1 m c main_v2 : Mat) = (m ((c : Thread nD τ).loc main_arg3) : Mat) := by
  show (StableHlo.after hostOps0 (W0 m c) (Proc.devRef .tc main_v2) : Mat) = _
  after_results
  rfl
theorem V1_v3 (c : Dev nD) : (V1 m c main_v3 : Mat) = (m ((c : Thread nD τ).loc main_arg4) : Mat) := by
  show (StableHlo.after hostOps0 (W0 m c) (Proc.devRef .tc main_v3) : Mat) = _
  after_results
  rfl

/-! ## What the second region finds -/

theorem V2_arg0 (c : Dev nD) : (V2 m c main_arg0 : Arr3) = (m ((c : Thread nD τ).loc main_arg0) : Arr3) := W2_main_arg0 m c
theorem V2_v0 (c : Dev nD) : (V2 m c main_v0 : Mat) = (m ((c : Thread nD τ).loc main_arg1) : Mat) :=
  (W2_of_ne m c main_v0 (by decide)).trans (V1_v0 m c)
theorem V2_v3 (c : Dev nD) : (V2 m c main_v3 : Mat) = (m ((c : Thread nD τ).loc main_arg4) : Mat) :=
  (W2_of_ne m c main_v3 (by decide)).trans (V1_v3 m c)
theorem V2_arg5 (c : Dev nD) : (V2 m c main_arg5 : Vec1) = (m ((c : Thread nD τ).loc main_arg5) : Vec1) :=
  (W2_of_ne m c main_arg5 (by decide)).trans (W1_main_arg5 m c)
/-- The key-value matrices, of the launch contents. -/
theorem V2_v4 (c : Dev nD) : (V2 m c main_v4 : Mats)
    = kvArr (m ((c : Thread nD τ).loc main_arg0)) (m ((c : Thread nD τ).loc main_arg2)) (m ((c : Thread nD τ).loc main_arg3)) := by
  refine ((W2_arr m c 3).trans (final0 (V1 m) c)).trans ?_
  rw [show (V1 m c main_arg0 : Arr3) = (m ((c : Thread nD τ).loc main_arg0) : Arr3) from W1_main_arg0 m c, V1_v1, V1_v2]

/-! ## The result -/

/-- The result array after the run is the block's specification of the launch contents. -/
theorem result (c : Dev nD) : (W3 m c (Proc.devRef .tc main_v5) : Arr3)
    = outArr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine ((W3_arr m c 5).trans (final1 (V2 m) c)).trans ?_
  unfold G1
  rw [V2_arg0, V2_v0, V2_v3, V2_arg5, V2_v4]
  rfl

/-- THE RUN WITH ITS VALUE: every weakly fair execution terminates, the result array holds the specification, and the
    argument arrays end as launched. -/
theorem run_value : θ_run defs (onTc (τ := τ) (main (F := Ideal))) ⟨m, fun _ => 0, ρ⟩ (fun r => ∀ c : Dev nD,
      r.2.mem ((c.tc : Thread nD τ).loc main_v5)
        = outArr (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
    (h c _ (mem_uc main_v5 (by decide))).trans (result m c),
    (h c _ (mem_uc main_arg0 (by decide))).trans (W3_main_arg0 m c),
    (h c _ (mem_uc main_arg1 (by decide))).trans (W3_main_arg1 m c),
    (h c _ (mem_uc main_arg2 (by decide))).trans (W3_main_arg2 m c),
    (h c _ (mem_uc main_arg3 (by decide))).trans (W3_main_arg3 m c),
    (h c _ (mem_uc main_arg4 (by decide))).trans (W3_main_arg4 m c),
    (h c _ (mem_uc main_arg5 (by decide))).trans (W3_main_arg5 m c)⟩) (run_all m ρ)

end Cert.KernelIdeal.Hand

end
-- ==== Proof.RefSpec.lean ====
/-
  The reference's result, read one operation at a time, is the block's specification.

  Each of the ten operations is read at an index split into its coordinates. A contraction is a sum over its one
  contracted axis of a product of two operand elements; the indices of those elements are rebuilt from the
  coordinates, and the sum is then, term for term, the corresponding sum of the specification:
    the three projections          x·Wqᵀ, x·Wkᵀ, x·Wvᵀ         are `proj`,
    the contraction over the sequence axis of the last two      is `kvAt`, hence the array `kvArr`,
    the contraction of the first with that array                is `zAt`,
    the last projection, the broadcast bias and the residual    are `outOf`, associated (projection + bias) + residual.
  No algebraic law is used: the factors of every product and the summands of every sum already stand in the same order.
-/
import proofs.«150717_j88364657148296_2_alg».proof.Proof.Gen.ReferenceIdeal.Read
import proofs.«150717_j88364657148296_2_alg».proof.Proof.Spec
import Idealize.ShloMosaic.Lib.ValueIdx
import Idealize.ShloMosaic.PureOps.Ideal.Laws

noncomputable section

open scoped BigOperators

namespace Cert.ReferenceIdeal.RefSpec

open Cert.ReferenceIdeal Cert.ReferenceIdeal.Read Cert.LinAttn Idealize.ShloMosaic Idealize.ShloMosaic.ValueIdx

/-- The rank-3 arrays, the square matrices and the vector of the reference, as it types them. -/
abbrev A3 : Type := (⟨S8x4096x1024, .f32⟩ : BufTy).Contents (Elt Ideal)
abbrev M2 : Type := (⟨S1024x1024, .f32⟩ : BufTy).Contents (Elt Ideal)
abbrev V1 : Type := (⟨S1024, .f32⟩ : BufTy).Contents (Elt Ideal)

/-! ## The operand indices of each contraction, from the coordinates -/

/-- A projection reads row (b, s) of its left operand at the contracted coordinate … -/
theorem lidx_v0 (b : Fin 8) (s : Fin 4096) (e k : Fin 1024) : lidx_main_v0 (ix3 b s e) k = ix3 b s k :=
  funext fun a => Fin.ext (by match a with | ⟨0, _⟩ => rfl | ⟨1, _⟩ => rfl | ⟨2, _⟩ => rfl)
/-- … and row e of the weight matrix at the same coordinate. -/
theorem ridx_v0 (b : Fin 8) (s : Fin 4096) (e k : Fin 1024) : ridx_main_v0 (ix3 b s e) k = ix2 e k :=
  funext fun a => Fin.ext (by match a with | ⟨0, _⟩ => rfl | ⟨1, _⟩ => rfl)
theorem lidx_v1 (b : Fin 8) (s : Fin 4096) (e k : Fin 1024) : lidx_main_v1 (ix3 b s e) k = ix3 b s k :=
  funext fun a => Fin.ext (by match a with | ⟨0, _⟩ => rfl | ⟨1, _⟩ => rfl | ⟨2, _⟩ => rfl)
theorem ridx_v1 (b : Fin 8) (s : Fin 4096) (e k : Fin 1024) : ridx_main_v1 (ix3 b s e) k = ix2 e k :=
  funext fun a => Fin.ext (by match a with | ⟨0, _⟩ => rfl | ⟨1, _⟩ => rfl)
theorem lidx_v2 (b : Fin 8) (s : Fin 4096) (e k : Fin 1024) : lidx_main_v2 (ix3 b s e) k = ix3 b s k :=
  funext fun a => Fin.ext (by match a with | ⟨0, _⟩ => rfl | ⟨1, _⟩ => rfl | ⟨2, _⟩ => rfl)
theorem ridx_v2 (b : Fin 8) (s : Fin 4096) (e k : Fin 1024) : ridx_main_v2 (ix3 b s e) k = ix2 e k :=
  funext fun a => Fin.ext (by match a with | ⟨0, _⟩ => rfl | ⟨1, _⟩ => rfl)
/-- The contraction over the sequence axis reads column e of the keys and column f of the values at position k of batch entry b. -/
theorem lidx_v3 (b : Fin 8) (e f : Fin 1024) (k : Fin 4096) : lidx_main_v3 (ix3 b e f) k = ix3 b k e :=
  funext fun a => Fin.ext (by match a with | ⟨0, _⟩ => rfl | ⟨1, _⟩ => rfl | ⟨2, _⟩ => rfl)
theorem ridx_v3 (b : Fin 8) (e f : Fin 1024) (k : Fin 4096) : ridx_main_v3 (ix3 b e f) k = ix3 b k f :=
  funext fun a => Fin.ext (by match a with | ⟨0, _⟩ => rfl | ⟨1, _⟩ => rfl | ⟨2, _⟩ => rfl)
/-- The contraction with the per-batch matrices reads the query row (b, s) and column f of matrix b. -/
theorem lidx_v4 (b : Fin 8) (s : Fin 4096) (f k : Fin 1024) : lidx_main_v4 (ix3 b s f) k = ix3 b s k :=
  funext fun a => Fin.ext (by match a with | ⟨0, _⟩ => rfl | ⟨1, _⟩ => rfl | ⟨2, _⟩ => rfl)
theorem ridx_v4 (b : Fin 8) (s : Fin 4096) (f k : Fin 1024) : ridx_main_v4 (ix3 b s f) k = ix3 b k f :=
  funext fun a => Fin.ext (by match a with | ⟨0, _⟩ => rfl | ⟨1, _⟩ => rfl | ⟨2, _⟩ => rfl)
theorem lidx_v5 (b : Fin 8) (s : Fin 4096) (g k : Fin 1024) : lidx_main_v5 (ix3 b s g) k = ix3 b s k :=
  funext fun a => Fin.ext (by match a with | ⟨0, _⟩ => rfl | ⟨1, _⟩ => rfl | ⟨2, _⟩ => rfl)
theorem ridx_v5 (b : Fin 8) (s : Fin 4096) (g k : Fin 1024) : ridx_main_v5 (ix3 b s g) k = ix2 g k :=
  funext fun a => Fin.ext (by match a with | ⟨0, _⟩ => rfl | ⟨1, _⟩ => rfl)
/-- The two broadcasts together read the bias at the last coordinate. -/
theorem idx_v67 (b : Fin 8) (s : Fin 4096) (g : Fin 1024) : idx_main_v6 (idx_main_v7 (ix3 b s g)) = ix1 g :=
  funext fun a => Fin.ext (by match a with | ⟨0, _⟩ => rfl)

/-! ## The operations at coordinates -/

/-- The query projection. -/
theorem v0_ix3 (x : A3) (w : M2) (b : Fin 8) (s : Fin 4096) (e : Fin 1024) :
    val_main_v0 (F := Ideal) x w (ix3 b s e) = proj x w b s e := by
  rw [val_main_v0_apply]
  unfold proj
  refine Finset.sum_congr rfl fun k _ => ?_
  rw [lidx_v0, ridx_v0]

/-- The key projection. -/
theorem v1_ix3 (x : A3) (w : M2) (b : Fin 8) (s : Fin 4096) (e : Fin 1024) :
    val_main_v1 (F := Ideal) x w (ix3 b s e) = proj x w b s e := by
  rw [val_main_v1_apply]
  unfold proj
  refine Finset.sum_congr rfl fun k _ => ?_
  rw [lidx_v1, ridx_v1]

/-- The value projection. -/
theorem v2_ix3 (x : A3) (w : M2) (b : Fin 8) (s : Fin 4096) (e : Fin 1024) :
    val_main_v2 (F := Ideal) x w (ix3 b s e) = proj x w b s e := by
  rw [val_main_v2_apply]
  unfold proj
  refine Finset.sum_congr rfl fun k _ => ?_
  rw [lidx_v2, ridx_v2]

/-- The keys contracted with the values over the whole sequence axis: the per-batch matrices, as one array. -/
theorem v3_eq (x : A3) (wk wv : M2) : val_main_v3 (F := Ideal) x wk wv = kvArr x wk wv := by
  funext j
  obtain ⟨b, e, f, rfl⟩ : ∃ (b : Fin 8) (e : Fin 1024) (f : Fin 1024), j = ix3 b e f := ⟨j 0, j 1, j 2, eq_ix3 j⟩
  rw [kvArr_ix3, val_main_v3_apply]
  unfold kvAt
  refine Finset.sum_congr rfl fun k _ => ?_
  rw [lidx_v3, ridx_v3, v1_ix3, v2_ix3]

/-- The queries contracted with the per-batch matrices. -/
theorem v4_ix3 (x : A3) (wq wk wv : M2) (b : Fin 8) (s : Fin 4096) (f : Fin 1024) :
    val_main_v4 (F := Ideal) x wq wk wv (ix3 b s f) = zAt x wq (kvArr x wk wv) b s f := by
  rw [val_main_v4_apply]
  unfold zAt
  refine Finset.sum_congr rfl fun k _ => ?_
  rw [lidx_v4, ridx_v4, v0_ix3, v3_eq]

/-- The last projection. -/
theorem v5_ix3 (x : A3) (wq wk wv wp : M2) (b : Fin 8) (s : Fin 4096) (g : Fin 1024) :
    val_main_v5 (F := Ideal) x wq wk wv wp (ix3 b s g)
      = ∑ f : Fin 1024, zAt x wq (kvArr x wk wv) b s f * wp (ix2 g f) := by
  rw [val_main_v5_apply]
  refine Finset.sum_congr rfl fun k _ => ?_
  rw [lidx_v5, ridx_v5, v4_ix3]

/-- The bias, broadcast along the batch and sequence axes. -/
theorem v7_ix3 (bp : V1) (b : Fin 8) (s : Fin 4096) (g : Fin 1024) :
    val_main_v7 (F := Ideal) bp (ix3 b s g) = bp (ix1 g) := by
  rw [val_main_v7_apply, val_main_v6_apply, idx_v67]

/-! ## The result -/

/-- The reference's result is the block's specification, as arrays. -/
theorem result_eq
    (x0 : (⟨Cert.ReferenceIdeal.S8x4096x1024, .f32⟩ : BufTy).Contents (Elt Ideal))
    (x1 x2 x3 x4 : (⟨Cert.ReferenceIdeal.S1024x1024, .f32⟩ : BufTy).Contents (Elt Ideal))
    (x5 : (⟨Cert.ReferenceIdeal.S1024, .f32⟩ : BufTy).Contents (Elt Ideal)) :
    Cert.ReferenceIdeal.Read.val_main_v9 (F := Ideal) x0 x1 x2 x3 x4 x5 = Cert.LinAttn.outArr x0 x1 x2 x3 x4 x5 := by
  funext j
  obtain ⟨b, s, g, rfl⟩ : ∃ (b : Fin 8) (s : Fin 4096) (g : Fin 1024), j = ix3 b s g := ⟨j 0, j 1, j 2, eq_ix3 j⟩
  rw [outArr_ix3, val_main_v9_apply, val_main_v8_apply, v5_ix3, v7_ix3, Ideal.addf_def, Ideal.addf_def]
  rfl

end Cert.ReferenceIdeal.RefSpec

end
-- ==== Proof.lean ====
/-
  The certificate of the linear-attention block: the kernel (two chained grid regions — one accumulating the key-value
  matrices over four sequence tiles into a scratch accumulator, one computing the output tiles) against its reference
  of six contractions, a bias and a residual.

  Frames. Each of the two kernel programs is four host conversions and two regions; its run is assembled from one segment
  per item, each region's body run case by case, the accumulator carried between grid points by the region's invariant
  (Proof/Bits at the word level, Proof/Ideal over the extended reals: the same text, read at the two instances). The
  reference is ten host operations and its frame is its run with the result dropped.

  Values. Over the extended reals every change of float format is the identity and every matrix product the plain sum of
  products, so the kernel's result array is the specification (Proof/Spec.lean) of the argument arrays: the accumulator's
  four partial sums add up to the sum over the whole sequence axis because addition of extended reals is commutative and
  associative — no distributivity, hence no finiteness, is used. The reference's ten operations read at an index are the
  same nested sums (Proof/RefSpec.lean).
-/
import proofs.«150717_j88364657148296_2_alg».proof.Defs
import proofs.«150717_j88364657148296_2_alg».proof.Proof.Gen.Kernel
import proofs.«150717_j88364657148296_2_alg».proof.Proof.Gen.KernelIdeal
import proofs.«150717_j88364657148296_2_alg».proof.Proof.Gen.ReferenceIdeal
import proofs.«150717_j88364657148296_2_alg».proof.Proof.Gen.Pre_finite_inputs
import proofs.«150717_j88364657148296_2_alg».proof.Proof.Gen.ReferenceIdeal.Run
import proofs.«150717_j88364657148296_2_alg».proof.Proof.Gen.ReferenceIdeal.Read
import proofs.«150717_j88364657148296_2_alg».proof.Proof.Bits.Run
import proofs.«150717_j88364657148296_2_alg».proof.Proof.Ideal.Run
import proofs.«150717_j88364657148296_2_alg».proof.Proof.Final
import proofs.«150717_j88364657148296_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_k : @Cert.frame_Kernel Cert.Kernel.Gen.facts Cert.Pre_finite_inputs.Gen.facts :=
  fun m ρ _ => Cert.Kernel.Hand.frame m ρ

/-- So does the kernel over the extended reals. -/
theorem frame_ki : @Cert.frame_KernelIdeal Cert.KernelIdeal.Gen.facts Cert.Pre_finite_inputs.Gen.facts :=
  fun m ρ _ => Cert.KernelIdeal.Hand.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs, from memories agreeing on the arguments, end with the specification of those arguments in their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefSpec.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
